-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x32x4 : Shape := ⟨4, ![8, 2048, 32, 4]⟩
abbrev S8x2048x32x32 : Shape := ⟨4, ![8, 2048, 32, 32]⟩
abbrev S8x2048x32 : Shape := ⟨3, ![8, 2048, 32]⟩
abbrev S_ : Shape := ⟨0, ![]⟩

class Facts : Prop where
  bcast_S_S8x2048x32x4 : S_.BroadcastsInDim S8x2048x32x4 (![] : Fin 0 → Fin S8x2048x32x4.rank)
  reducesTo_S8x2048x32x4_S_d0_1_2_3 : S8x2048x32x4.ReducesTo [0, 1, 2, 3] S_
  h_S_ : 0 < S_.numel
  bcast_S_S8x2048x32x32 : S_.BroadcastsInDim S8x2048x32x32 (![] : Fin 0 → Fin S8x2048x32x32.rank)
  reducesTo_S8x2048x32x32_S_d0_1_2_3 : S8x2048x32x32.ReducesTo [0, 1, 2, 3] S_
  bcast_S_S8x2048x32 : S_.BroadcastsInDim S8x2048x32 (![] : Fin 0 → Fin S8x2048x32.rank)
  reducesTo_S8x2048x32_S_d0_1_2 : S8x2048x32.ReducesTo [0, 1, 2] S_

variable [Facts]

def fn {F : FTy → Type} [FloatOps F] (main_arg0 : FVec F S8x2048x32x4 .f32) (main_arg1 : FVec F S8x2048x32x32 .f32) (main_arg2 : FVec F S8x2048x32 .f32) : IVec S_ 1 :=
  let main_v0 : FVec F S8x2048x32x4 .f32 := Host.absf main_arg0
  let main_cst : FVec F S_ .f32 := constant S_ .f32 0x7F800000#32
  let main_v1 : FVec F S8x2048x32x4 .f32 := broadcastInDim S8x2048x32x4 ![] bcast_S_S8x2048x32x4 main_cst
  let main_v2 : IVec S8x2048x32x4 1 := cmpf .olt main_v0 main_v1
  let main_c : IVec S_ 1 := constantI S_ 1 1#1
  let main_v3 : IVec S_ 1 := (fun x v => Host.reduce IntOp.andi x v reducesTo_S8x2048x32x4_S_d0_1_2_3 h_S_) main_v2 main_c
  let main_v4 : FVec F S8x2048x32x32 .f32 := Host.absf main_arg1
  let main_cst_0 : FVec F S_ .f32 := constant S_ .f32 0x7F800000#32
  let main_v5 : FVec F S8x2048x32x32 .f32 := broadcastInDim S8x2048x32x32 ![] bcast_S_S8x2048x32x32 main_cst_0
  let main_v6 : IVec S8x2048x32x32 1 := cmpf .olt main_v4 main_v5
  let main_c_1 : IVec S_ 1 := constantI S_ 1 1#1
  let main_v7 : IVec S_ 1 := (fun x v => Host.reduce IntOp.andi x v reducesTo_S8x2048x32x32_S_d0_1_2_3 h_S_) main_v6 main_c_1
  let main_v8 : IVec S_ 1 := andi main_v3 main_v7
  let main_v9 : FVec F S8x2048x32 .f32 := Host.absf main_arg2
  let main_cst_2 : FVec F S_ .f32 := constant S_ .f32 0x7F800000#32
  let main_v10 : FVec F S8x2048x32 .f32 := broadcastInDim S8x2048x32 ![] bcast_S_S8x2048x32 main_cst_2
  let main_v11 : IVec S8x2048x32 1 := cmpf .olt main_v9 main_v10
  let main_c_3 : IVec S_ 1 := constantI S_ 1 1#1
  let main_v12 : IVec S_ 1 := (fun x v => Host.reduce IntOp.andi x v reducesTo_S8x2048x32_S_d0_1_2 h_S_) main_v11 main_c_3
  let main_v13 : IVec S_ 1 := andi main_v8 main_v12
  main_v13
-- ==== Kernel.lean ====
abbrev S8x2048x32x4 : Shape := ⟨4, ![8, 2048, 32, 4]⟩
abbrev S8x2048x32x32 : Shape := ⟨4, ![8, 2048, 32, 32]⟩
abbrev S8x2048x32 : Shape := ⟨3, ![8, 2048, 32]⟩
abbrev S16384x128 : Shape := ⟨2, ![16384, 128]⟩
abbrev S16384x1024 : Shape := ⟨2, ![16384, 1024]⟩
abbrev S16384x32 : Shape := ⟨2, ![16384, 32]⟩
abbrev S1024x128 : Shape := ⟨2, ![1024, 128]⟩
abbrev S1024x1024 : Shape := ⟨2, ![1024, 1024]⟩
abbrev S1024x32 : Shape := ⟨2, ![1024, 32]⟩
abbrev S32x32 : Shape := ⟨2, ![32, 32]⟩
abbrev S1x32x32 : Shape := ⟨3, ![1, 32, 32]⟩
abbrev S128x128 : Shape := ⟨2, ![128, 128]⟩
abbrev S128x1024 : Shape := ⟨2, ![128, 1024]⟩
abbrev S128x32 : Shape := ⟨2, ![128, 32]⟩
abbrev S128x32x4 : Shape := ⟨3, ![128, 32, 4]⟩
abbrev S128x32x32 : Shape := ⟨3, ![128, 32, 32]⟩
abbrev S128x32x1 : Shape := ⟨3, ![128, 32, 1]⟩
abbrev S128x1x32 : Shape := ⟨3, ![128, 1, 32]⟩

abbrev nBuf : Space → Nat
  | .hbm => 10
  | .vmem => 10
  | .smem => 0
  | _ => 0

abbrev bufTy : (tb : Table) → Fin (tcTables nBuf tb) → BufTy
  | .hbm, ⟨0, _⟩ => ⟨S8x2048x32x4, .f32⟩
  | .hbm, ⟨1, _⟩ => ⟨S8x2048x32x32, .f32⟩
  | .hbm, ⟨2, _⟩ => ⟨S8x2048x32, .f32⟩
  | .hbm, ⟨3, _⟩ => ⟨S16384x128, .f32⟩
  | .hbm, ⟨4, _⟩ => ⟨S16384x1024, .f32⟩
  | .hbm, ⟨5, _⟩ => ⟨S16384x32, .f32⟩
  | .hbm, ⟨6, _⟩ => ⟨S16384x128, .f32⟩
  | .hbm, ⟨7, _⟩ => ⟨S16384x1024, .f32⟩
  | .hbm, ⟨8, _⟩ => ⟨S8x2048x32x4, .f32⟩
  | .hbm, ⟨9, _⟩ => ⟨S8x2048x32x32, .f32⟩
  | .local _ .vmem, ⟨0, _⟩ => ⟨S1024x128, .f32⟩
  | .local _ .vmem, ⟨1, _⟩ => ⟨S1024x128, .f32⟩
  | .local _ .vmem, ⟨2, _⟩ => ⟨S1024x1024, .f32⟩
  | .local _ .vmem, ⟨3, _⟩ => ⟨S1024x1024, .f32⟩
  | .local _ .vmem, ⟨4, _⟩ => ⟨S1024x32, .f32⟩
  | .local _ .vmem, ⟨5, _⟩ => ⟨S1024x32, .f32⟩
  | .local _ .vmem, ⟨6, _⟩ => ⟨S1024x128, .f32⟩
  | .local _ .vmem, ⟨7, _⟩ => ⟨S1024x128, .f32⟩
  | .local _ .vmem, ⟨8, _⟩ => ⟨S1024x1024, .f32⟩
  | .local _ .vmem, ⟨9, _⟩ => ⟨S1024x1024, .f32⟩
  | _, _ => ⟨S8x2048x32x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v8 : BitVec 32 := Scalar.addi c0_i32 c8_i32
  let c1_i32 : BitVec 32 := 1#32
  ⟨c0_i32, v8, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c128_i32 : BitVec 32 := 128#32
  let v9 : BitVec 32 := Scalar.muli arg6 c128_i32
  v9
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v9 : BitVec 32 := Scalar.muli arg6 c128_i32
  let v10 : BitVec 32 := v9
  let v11 : Index := Scalar.indexCast v10
  let c0 : Index := 0#32
  ![v11.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v9 : BitVec 32 := Scalar.muli arg6 c128_i32
  let v10 : BitVec 32 := v9
  let v14 : Index := Scalar.indexCast v10
  let c0_1 : Index := 0#32
  ![v14.toNat, 0]
def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c128_i32 : BitVec 32 := 128#32
  let v9 : BitVec 32 := Scalar.muli arg6 c128_i32
  let v10 : BitVec 32 := v9
  let v17 : Index := Scalar.indexCast v10
  let c0_2 : Index := 0#32
  ![v17.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S8x2048x32x4_S16384x128 : S8x2048x32x4.ShapeCasts S16384x128
  shapeCasts_S8x2048x32x32_S16384x1024 : S8x2048x32x32.ShapeCasts S16384x1024
  shapeCasts_S8x2048x32_S16384x32 : S8x2048x32.ShapeCasts S16384x32
  iota_S32x32_d0_w32 : S32x32.Iotas .tc 32 [0]
  iota_S32x32_d1_w32 : S32x32.Iotas .tc 32 [1]
  natLt_1_32 : 1 < 32
  shapeCasts_S32x32_S1x32x32 : S32x32.ShapeCasts S1x32x32
  h_S128x128 : 0 < S128x128.numel
  shapeCasts_S128x128_S128x128 : S128x128.ShapeCasts S128x128
  h_S128x1024 : 0 < S128x1024.numel
  shapeCasts_S128x1024_S128x1024 : S128x1024.ShapeCasts S128x1024
  h_S128x32 : 0 < S128x32.numel
  shapeCasts_S128x32_S128x32 : S128x32.ShapeCasts S128x32
  shapeCasts_S128x128_S128x32x4 : S128x128.ShapeCasts S128x32x4
  shapeCasts_S128x1024_S128x32x32 : S128x1024.ShapeCasts S128x32x32
  broadcasts_S1x32x32_S128x32x32 : S1x32x32.Broadcasts S128x32x32
  reduces_S128x32x32_S128x32 : S128x32x32.Reduces [2] S128x32
  shapeCasts_S128x32_S128x32x1 : S128x32.ShapeCasts S128x32x1
  broadcasts_S128x32x1_S128x32x4 : S128x32x1.Broadcasts S128x32x4
  slices_S128x32x4_o0_0_0_S128x32x1 : S128x32x4.Slices ![0, 0, 0] S128x32x1
  shapeCasts_S128x32x1_S128x32 : S128x32x1.ShapeCasts S128x32
  slices_S128x32x4_o0_0_1_S128x32x1 : S128x32x4.Slices ![0, 0, 1] S128x32x1
  slices_S128x32x4_o0_0_2_S128x32x1 : S128x32x4.Slices ![0, 0, 2] S128x32x1
  slices_S128x32x4_o0_0_3_S128x32x1 : S128x32x4.Slices ![0, 0, 3] S128x32x1
  shapeCasts_S128x32_S128x1x32 : S128x32.ShapeCasts S128x1x32
  broadcasts_S128x32x1_S128x32x32 : S128x32x1.Broadcasts S128x32x32
  broadcasts_S128x1x32_S128x32x32 : S128x1x32.Broadcasts S128x32x32
  concatenates_S128x32x1_S128x32x1_S128x32x1_S128x32x1_S128x32x4_d2 : Shape.Concatenates [S128x32x1, S128x32x1, S128x32x1, S128x32x1] S128x32x4 2
  shapeCasts_S128x32x4_S128x128 : S128x32x4.ShapeCasts S128x128
  shapeCasts_S128x32x32_S128x1024 : S128x32x32.ShapeCasts S128x1024
  shapeCasts_S16384x128_S8x2048x32x4 : S16384x128.ShapeCasts S8x2048x32x4
  shapeCasts_S16384x1024_S8x2048x32x32 : S16384x1024.ShapeCasts S8x2048x32x32
  dot_S128x32x32_S128x32x4_S128x32x4_2_1_1_2_0_0_wf : DotDims.WF S128x32x32 S128x32x4 S128x32x4 [2] [1] [1] [2] [0] [0]
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x128.size a ≤ S1024x128.size a
  k0_off2_inb : ∀ k0_t1 : Fin k0_t1_loop.trips, ∀ a, (k0_off2 k0_t1) a + S128x1024.size a ≤ S1024x1024.size a
  k0_off3_inb : ∀ k0_t1 : Fin k0_t1_loop.trips, ∀ a, (k0_off3 k0_t1) a + S128x32.size a ≤ S1024x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S16384x128.size a
  hwx0_0 : ∀ i : grid0.Coords, EltTy.bits .f32 = 32 ∨ (Rect.block (s := S16384x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x1024.size a
  hwx0_1 : ∀ i : grid0.Coords, EltTy.bits .f32 = 32 ∨ (Rect.block (s := S16384x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x32.size a ≤ S16384x32.size a
  hwx0_2 : ∀ i : grid0.Coords, EltTy.bits .f32 = 32 ∨ (Rect.block (s := S16384x32) S1024x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S16384x128.size a
  hwx0_3 : ∀ i : grid0.Coords, EltTy.bits .f32 = 32 ∨ (Rect.block (s := S16384x128) S1024x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S16384x1024.size a
  hwx0_4 : ∀ i : grid0.Coords, EltTy.bits .f32 = 32 ∨ (Rect.block (s := S16384x1024) S1024x1024.size (cc0_transform_4 i) (hinb0_4 i)).WholeWords (EltTy.packing .f32)

variable [Facts₀]

def dot_S128x32x32_S128x32x4_S128x32x4_2_1_1_2_0_0 : DotDims S128x32x32 S128x32x4 S128x32x4 where
  lhsContracting := [2]
  rhsContracting := [1]
  lhsNonContracting := [1]
  rhsNonContracting := [2]
  lhsBatch := [0]
  rhsBatch := [0]
  wf := dot_S128x32x32_S128x32x4_S128x32x4_2_1_1_2_0_0_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1024x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x32x4 : Shape := ⟨4, ![8, 2048, 32, 4]⟩
abbrev S8x2048x32x32 : Shape := ⟨4, ![8, 2048, 32, 32]⟩
abbrev S8x2048x32 : Shape := ⟨3, ![8, 2048, 32]⟩
abbrev S32x32 : Shape := ⟨2, ![32, 32]⟩
abbrev S_ : Shape := ⟨0, ![]⟩
abbrev S1x1x32x32 : Shape := ⟨4, ![1, 1, 32, 32]⟩
abbrev S8x2048x32x1 : Shape := ⟨4, ![8, 2048, 32, 1]⟩
abbrev S8x2048x32x1x4 : Shape := ⟨5, ![8, 2048, 32, 1, 4]⟩
abbrev S8x2048x1x32x4 : Shape := ⟨5, ![8, 2048, 1, 32, 4]⟩
abbrev S8x2048x32x32x4 : Shape := ⟨5, ![8, 2048, 32, 32, 4]⟩
abbrev S8x2048x1x32 : Shape := ⟨4, ![8, 2048, 1, 32]⟩

abbrev nBuf : Space → Nat
  | .hbm => 194
  | .vmem => 0
  | .smem => 0
  | _ => 0

abbrev hbmTy0_0 (i : Nat) : BufTy := match i % 128 with
  | 0 => ⟨S8x2048x32x4, .f32⟩
  | 1 => ⟨S8x2048x32x32, .f32⟩
  | 2 => ⟨S8x2048x32, .f32⟩
  | 3 => ⟨S32x32, .i32⟩
  | 4 => ⟨S32x32, .i32⟩
  | 5 => ⟨S_, .i32⟩
  | 6 => ⟨S32x32, .i32⟩
  | 7 => ⟨S32x32, .i32⟩
  | 8 => ⟨S32x32, .i1⟩
  | 9 => ⟨S32x32, .f32⟩
  | 10 => ⟨S_, .f32⟩
  | 11 => ⟨S32x32, .f32⟩
  | 12 => ⟨S32x32, .f32⟩
  | 13 => ⟨S1x1x32x32, .f32⟩
  | 14 => ⟨S8x2048x32x32, .f32⟩
  | 15 => ⟨S8x2048x32x32, .f32⟩
  | 16 => ⟨S8x2048x32x4, .f32⟩
  | 17 => ⟨S_, .f32⟩
  | 18 => ⟨S8x2048x32, .f32⟩
  | 19 => ⟨S8x2048x32x1, .f32⟩
  | 20 => ⟨S_, .f32⟩
  | 21 => ⟨S8x2048x32x1, .f32⟩
  | 22 => ⟨S8x2048x32x1, .f32⟩
  | 23 => ⟨S8x2048x32x4, .f32⟩
  | 24 => ⟨S8x2048x32x4, .f32⟩
  | 25 => ⟨S8x2048x32x1, .f32⟩
  | 26 => ⟨S8x2048x32, .f32⟩
  | 27 => ⟨S8x2048x32x1, .f32⟩
  | 28 => ⟨S8x2048x32, .f32⟩
  | 29 => ⟨S8x2048x32x1, .f32⟩
  | 30 => ⟨S8x2048x32, .f32⟩
  | 31 => ⟨S8x2048x32x1, .f32⟩
  | 32 => ⟨S8x2048x32, .f32⟩
  | 33 => ⟨S8x2048x32x1, .f32⟩
  | 34 => ⟨S8x2048x32, .f32⟩
  | 35 => ⟨S8x2048x32x1, .f32⟩
  | 36 => ⟨S8x2048x32, .f32⟩
  | 37 => ⟨S8x2048x32x1, .f32⟩
  | 38 => ⟨S8x2048x32, .f32⟩
  | 39 => ⟨S8x2048x32x1, .f32⟩
  | 40 => ⟨S8x2048x32, .f32⟩
  | 41 => ⟨S_, .f32⟩
  | 42 => ⟨S8x2048x32, .f32⟩
  | 43 => ⟨S8x2048x32, .f32⟩
  | 44 => ⟨S8x2048x32, .f32⟩
  | 45 => ⟨S_, .f32⟩
  | 46 => ⟨S8x2048x32, .f32⟩
  | 47 => ⟨S8x2048x32, .f32⟩
  | 48 => ⟨S8x2048x32, .f32⟩
  | 49 => ⟨S_, .f32⟩
  | 50 => ⟨S8x2048x32, .f32⟩
  | 51 => ⟨S8x2048x32, .f32⟩
  | 52 => ⟨S8x2048x32, .f32⟩
  | 53 => ⟨S_, .f32⟩
  | 54 => ⟨S_, .f32⟩
  | 55 => ⟨S_, .f32⟩
  | 56 => ⟨S8x2048x32, .f32⟩
  | 57 => ⟨S8x2048x32, .f32⟩
  | 58 => ⟨S_, .f32⟩
  | 59 => ⟨S8x2048x32, .f32⟩
  | 60 => ⟨S8x2048x32, .f32⟩
  | 61 => ⟨S_, .f32⟩
  | 62 => ⟨S8x2048x32, .f32⟩
  | 63 => ⟨S8x2048x32, .f32⟩
  | 64 => ⟨S8x2048x32, .f32⟩
  | 65 => ⟨S8x2048x32, .f32⟩
  | 66 => ⟨S_, .f32⟩
  | 67 => ⟨S8x2048x32, .f32⟩
  | 68 => ⟨S8x2048x32, .f32⟩
  | 69 => ⟨S8x2048x32, .f32⟩
  | 70 => ⟨S_, .f32⟩
  | 71 => ⟨S8x2048x32, .f32⟩
  | 72 => ⟨S8x2048x32, .f32⟩
  | 73 => ⟨S8x2048x32, .f32⟩
  | 74 => ⟨S_, .f32⟩
  | 75 => ⟨S_, .f32⟩
  | 76 => ⟨S_, .f32⟩
  | 77 => ⟨S8x2048x32, .f32⟩
  | 78 => ⟨S8x2048x32, .f32⟩
  | 79 => ⟨S_, .f32⟩
  | 80 => ⟨S8x2048x32, .f32⟩
  | 81 => ⟨S8x2048x32, .f32⟩
  | 82 => ⟨S_, .f32⟩
  | 83 => ⟨S8x2048x32, .f32⟩
  | 84 => ⟨S8x2048x32, .f32⟩
  | 85 => ⟨S_, .f32⟩
  | 86 => ⟨S8x2048x32, .f32⟩
  | 87 => ⟨S8x2048x32, .f32⟩
  | 88 => ⟨S8x2048x32, .f32⟩
  | 89 => ⟨S8x2048x32, .f32⟩
  | 90 => ⟨S8x2048x32, .f32⟩
  | 91 => ⟨S_, .f32⟩
  | 92 => ⟨S8x2048x32, .f32⟩
  | 93 => ⟨S8x2048x32, .f32⟩
  | 94 => ⟨S8x2048x32, .f32⟩
  | 95 => ⟨S_, .f32⟩
  | 96 => ⟨S8x2048x32, .f32⟩
  | 97 => ⟨S8x2048x32, .f32⟩
  | 98 => ⟨S8x2048x32, .f32⟩
  | 99 => ⟨S_, .f32⟩
  | 100 => ⟨S_, .f32⟩
  | 101 => ⟨S_, .f32⟩
  | 102 => ⟨S8x2048x32, .f32⟩
  | 103 => ⟨S8x2048x32, .f32⟩
  | 104 => ⟨S_, .f32⟩
  | 105 => ⟨S8x2048x32, .f32⟩
  | 106 => ⟨S8x2048x32, .f32⟩
  | 107 => ⟨S_, .f32⟩
  | 108 => ⟨S8x2048x32, .f32⟩
  | 109 => ⟨S8x2048x32, .f32⟩
  | 110 => ⟨S_, .f32⟩
  | 111 => ⟨S8x2048x32, .f32⟩
  | 112 => ⟨S8x2048x32, .f32⟩
  | 113 => ⟨S8x2048x32, .f32⟩
  | 114 => ⟨S_, .f32⟩
  | 115 => ⟨S8x2048x32, .f32⟩
  | 116 => ⟨S8x2048x32, .f32⟩
  | 117 => ⟨S8x2048x32, .f32⟩
  | 118 => ⟨S8x2048x32, .f32⟩
  | 119 => ⟨S_, .f32⟩
  | 120 => ⟨S8x2048x32, .f32⟩
  | 121 => ⟨S8x2048x32, .f32⟩
  | 122 => ⟨S8x2048x32, .f32⟩
  | 123 => ⟨S_, .f32⟩
  | 124 => ⟨S8x2048x32, .f32⟩
  | 125 => ⟨S8x2048x32, .f32⟩
  | 126 => ⟨S8x2048x32, .f32⟩
  | 127 => ⟨S_, .f32⟩
  | _ => ⟨S8x2048x32x4, .f32⟩

abbrev hbmTy0_1 (i : Nat) : BufTy := match i % 128 with
  | 0 => ⟨S_, .f32⟩
  | 1 => ⟨S_, .f32⟩
  | 2 => ⟨S8x2048x32, .f32⟩
  | 3 => ⟨S8x2048x32, .f32⟩
  | 4 => ⟨S_, .f32⟩
  | 5 => ⟨S8x2048x32, .f32⟩
  | 6 => ⟨S8x2048x32, .f32⟩
  | 7 => ⟨S8x2048x32x1, .f32⟩
  | 8 => ⟨S8x2048x32x1, .f32⟩
  | 9 => ⟨S8x2048x32x1, .f32⟩
  | 10 => ⟨S8x2048x32x1, .f32⟩
  | 11 => ⟨S8x2048x32x4, .f32⟩
  | 12 => ⟨S8x2048x32x1x4, .f32⟩
  | 13 => ⟨S8x2048x1x32x4, .f32⟩
  | 14 => ⟨S8x2048x32x32x4, .f32⟩
  | 15 => ⟨S8x2048x32x32x4, .f32⟩
  | 16 => ⟨S8x2048x32x32x4, .f32⟩
  | 17 => ⟨S8x2048x32x32x4, .f32⟩
  | 18 => ⟨S_, .f32⟩
  | 19 => ⟨S8x2048x32x32, .f32⟩
  | 20 => ⟨S_, .f32⟩
  | 21 => ⟨S8x2048x32x32, .f32⟩
  | 22 => ⟨S8x2048x32x32, .i1⟩
  | 23 => ⟨S_, .f32⟩
  | 24 => ⟨S8x2048x32x32, .f32⟩
  | 25 => ⟨S8x2048x32x32, .i1⟩
  | 26 => ⟨S_, .f32⟩
  | 27 => ⟨S_, .f32⟩
  | 28 => ⟨S8x2048x32x32, .f32⟩
  | 29 => ⟨S8x2048x32x32, .f32⟩
  | 30 => ⟨S8x2048x32x32, .f32⟩
  | 31 => ⟨S_, .f32⟩
  | 32 => ⟨S_, .f32⟩
  | 33 => ⟨S8x2048x32x32, .f32⟩
  | 34 => ⟨S8x2048x32x32, .f32⟩
  | 35 => ⟨S8x2048x32x1, .f32⟩
  | 36 => ⟨S8x2048x1x32, .f32⟩
  | 37 => ⟨S8x2048x32x32, .f32⟩
  | 38 => ⟨S8x2048x32x32, .f32⟩
  | 39 => ⟨S8x2048x32x32, .f32⟩
  | 40 => ⟨S_, .f32⟩
  | 41 => ⟨S8x2048x32x32, .f32⟩
  | 42 => ⟨S8x2048x32x32, .f32⟩
  | 43 => ⟨S_, .f32⟩
  | 44 => ⟨S8x2048x32x32, .f32⟩
  | 45 => ⟨S8x2048x32x32, .f32⟩
  | 46 => ⟨S8x2048x32x32, .f32⟩
  | 47 => ⟨S8x2048x32x32, .f32⟩
  | 48 => ⟨S_, .f32⟩
  | 49 => ⟨S8x2048x32x32, .f32⟩
  | 50 => ⟨S8x2048x32x32, .f32⟩
  | 51 => ⟨S8x2048x32x32, .f32⟩
  | 52 => ⟨S_, .f32⟩
  | 53 => ⟨S_, .f32⟩
  | 54 => ⟨S_, .f32⟩
  | 55 => ⟨S8x2048x32x32, .f32⟩
  | 56 => ⟨S8x2048x32x32, .f32⟩
  | 57 => ⟨S_, .f32⟩
  | 58 => ⟨S8x2048x32x32, .f32⟩
  | 59 => ⟨S8x2048x32x32, .f32⟩
  | 60 => ⟨S_, .f32⟩
  | 61 => ⟨S32x32, .f32⟩
  | 62 => ⟨S32x32, .f32⟩
  | 63 => ⟨S1x1x32x32, .f32⟩
  | 64 => ⟨S8x2048x32x32, .f32⟩
  | 65 => ⟨S8x2048x32x32, .f32⟩
  | _ => ⟨S8x2048x32x4, .f32⟩

abbrev hbmTy (i : Nat) : BufTy := match i / 128 with
  | 0 => hbmTy0_0 i
  | 1 => hbmTy0_1 i
  | _ => ⟨S8x2048x32x4, .f32⟩

abbrev bufTy : (tb : Table) → Fin (tcTables nBuf tb) → BufTy
  | .hbm, ⟨i, _⟩ => hbmTy i
  | _, _ => ⟨S8x2048x32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_cst_6 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_cst_11 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_v54 : Ref sig .tc := ⟨.hbm, 81, rfl⟩
abbrev main_cst_12 : Ref sig .tc := ⟨.hbm, 82, rfl⟩
abbrev main_v55 : Ref sig .tc := ⟨.hbm, 83, rfl⟩
abbrev main_v56 : Ref sig .tc := ⟨.hbm, 84, rfl⟩
abbrev main_cst_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_14 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_15 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_16 : Ref sig .tc := ⟨.hbm, 99, rfl⟩
abbrev main_cst_17 : Ref sig .tc := ⟨.hbm, 100, rfl⟩
abbrev main_call2_v0 : Ref sig .tc := ⟨.hbm, 101, rfl⟩
abbrev main_call2_v1 : Ref sig .tc := ⟨.hbm, 102, rfl⟩
abbrev main_call2_v2 : Ref sig .tc := ⟨.hbm, 103, rfl⟩
abbrev main_call2_v3 : Ref sig .tc := ⟨.hbm, 104, rfl⟩
abbrev main_call2_v4 : Ref sig .tc := ⟨.hbm, 105, rfl⟩
abbrev main_v68 : Ref sig .tc := ⟨.hbm, 106, rfl⟩
abbrev main_cst_18 : Ref sig .tc := ⟨.hbm, 107, rfl⟩
abbrev main_v69 : Ref sig .tc := ⟨.hbm, 108, rfl⟩
abbrev main_v70 : Ref sig .tc := ⟨.hbm, 109, rfl⟩
abbrev main_cst_19 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_cst_20 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_cst_21 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_22 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_cst_23 : Ref sig .tc := ⟨.hbm, 127, rfl⟩
abbrev main_cst_24 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_call3_v3 : Ref sig .tc := ⟨.hbm, 132, rfl⟩
abbrev main_call3_v4 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_cst_25 : Ref sig .tc := ⟨.hbm, 146, rfl⟩
abbrev main_v96 : Ref sig .tc := ⟨.hbm, 147, rfl⟩
abbrev main_cst_26 : Ref sig .tc := ⟨.hbm, 148, rfl⟩
abbrev main_v97 : Ref sig .tc := ⟨.hbm, 149, rfl⟩
abbrev main_v98 : Ref sig .tc := ⟨.hbm, 150, rfl⟩
abbrev main_cst_27 : Ref sig .tc := ⟨.hbm, 151, rfl⟩
abbrev main_v99 : Ref sig .tc := ⟨.hbm, 152, rfl⟩
abbrev main_v100 : Ref sig .tc := ⟨.hbm, 153, rfl⟩
abbrev main_cst_28 : Ref sig .tc := ⟨.hbm, 154, rfl⟩
abbrev main_call4_v0 : Ref sig .tc := ⟨.hbm, 155, rfl⟩
abbrev main_call4_v1 : Ref sig .tc := ⟨.hbm, 156, rfl⟩
abbrev main_v101 : Ref sig .tc := ⟨.hbm, 157, rfl⟩
abbrev main_v102 : Ref sig .tc := ⟨.hbm, 158, rfl⟩
abbrev main_cst_29 : Ref sig .tc := ⟨.hbm, 159, rfl⟩
abbrev main_call5_v0 : Ref sig .tc := ⟨.hbm, 160, rfl⟩
abbrev main_call5_v1 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_cst_30 : Ref sig .tc := ⟨.hbm, 168, rfl⟩
abbrev main_v109 : Ref sig .tc := ⟨.hbm, 169, rfl⟩
abbrev main_v110 : Ref sig .tc := ⟨.hbm, 170, rfl⟩
abbrev main_cst_31 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_cst_32 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_cst_33 : Ref sig .tc := ⟨.hbm, 180, rfl⟩
abbrev main_cst_34 : Ref sig .tc := ⟨.hbm, 181, rfl⟩
abbrev main_call6_v0 : Ref sig .tc := ⟨.hbm, 182, rfl⟩
abbrev main_call6_v1 : Ref sig .tc := ⟨.hbm, 183, rfl⟩
abbrev main_call6_v2 : Ref sig .tc := ⟨.hbm, 184, rfl⟩
abbrev main_call6_v3 : Ref sig .tc := ⟨.hbm, 185, rfl⟩
abbrev main_call6_v4 : Ref sig .tc := ⟨.hbm, 186, rfl⟩
abbrev main_v118 : Ref sig .tc := ⟨.hbm, 187, rfl⟩
abbrev main_cst_35 : Ref sig .tc := ⟨.hbm, 188, rfl⟩
abbrev main_v119 : Ref sig .tc := ⟨.hbm, 189, rfl⟩
abbrev main_v120 : Ref sig .tc := ⟨.hbm, 190, rfl⟩
abbrev main_v121 : Ref sig .tc := ⟨.hbm, 191, rfl⟩
abbrev main_v122 : Ref sig .tc := ⟨.hbm, 192, rfl⟩
abbrev main_v123 : Ref sig .tc := ⟨.hbm, 193, rfl⟩

abbrev nD : Nat := 1
abbrev τ : Topo := Topo.v7x

variable {F : FTy → Type} [FloatOps F]

class Facts₀ : Prop where
  bcast_S_S32x32 : S_.BroadcastsInDim S32x32 (![] : Fin 0 → Fin S32x32.rank)
  bcast_S32x32_S1x1x32x32_2_3 : S32x32.BroadcastsInDim S1x1x32x32 (![2, 3] : Fin 2 → Fin S1x1x32x32.rank)
  bcast_S1x1x32x32_S8x2048x32x32_0_1_2_3 : S1x1x32x32.BroadcastsInDim S8x2048x32x32 (![0, 1, 2, 3] : Fin 4 → Fin S8x2048x32x32.rank)
  reducesTo_S8x2048x32x32_S8x2048x32_d3 : S8x2048x32x32.ReducesTo [3] S8x2048x32
  h_S_ : 0 < S_.numel
  bcast_S8x2048x32_S8x2048x32x1_0_1_2 : S8x2048x32.BroadcastsInDim S8x2048x32x1 (![0, 1, 2] : Fin 3 → Fin S8x2048x32x1.rank)
  bcast_S_S8x2048x32x1 : S_.BroadcastsInDim S8x2048x32x1 (![] : Fin 0 → Fin S8x2048x32x1.rank)
  bcast_S8x2048x32x1_S8x2048x32x4_0_1_2_3 : S8x2048x32x1.BroadcastsInDim S8x2048x32x4 (![0, 1, 2, 3] : Fin 4 → Fin S8x2048x32x4.rank)
  slices_S8x2048x32x4_S8x2048x32x1_0_0_0_0 : S8x2048x32x4.Slices ![0, 0, 0, 0] S8x2048x32x1
  shapeCasts_S8x2048x32x1_S8x2048x32 : S8x2048x32x1.ShapeCasts S8x2048x32
  slices_S8x2048x32x4_S8x2048x32x1_0_0_0_1 : S8x2048x32x4.Slices ![0, 0, 0, 1] S8x2048x32x1
  slices_S8x2048x32x4_S8x2048x32x1_0_0_0_2 : S8x2048x32x4.Slices ![0, 0, 0, 2] S8x2048x32x1
  slices_S8x2048x32x4_S8x2048x32x1_0_0_0_3 : S8x2048x32x4.Slices ![0, 0, 0, 3] S8x2048x32x1
  bcast_S_S8x2048x32 : S_.BroadcastsInDim S8x2048x32 (![] : Fin 0 → Fin S8x2048x32.rank)
  concatenates_S8x2048x32x1_S8x2048x32x1_S8x2048x32x1_S8x2048x32x1_S8x2048x32x4_d3 : Shape.Concatenates [S8x2048x32x1, S8x2048x32x1, S8x2048x32x1, S8x2048x32x1] S8x2048x32x4 3
  bcast_S8x2048x32x4_S8x2048x32x1x4_0_1_2_4 : S8x2048x32x4.BroadcastsInDim S8x2048x32x1x4 (![0, 1, 2, 4] : Fin 4 → Fin S8x2048x32x1x4.rank)
  bcast_S8x2048x32x4_S8x2048x1x32x4_0_1_3_4 : S8x2048x32x4.BroadcastsInDim S8x2048x1x32x4 (![0, 1, 3, 4] : Fin 4 → Fin S8x2048x1x32x4.rank)
  bcast_S8x2048x32x1x4_S8x2048x32x32x4_0_1_2_3_4 : S8x2048x32x1x4.BroadcastsInDim S8x2048x32x32x4 (![0, 1, 2, 3, 4] : Fin 5 → Fin S8x2048x32x32x4.rank)
  bcast_S8x2048x1x32x4_S8x2048x32x32x4_0_1_2_3_4 : S8x2048x1x32x4.BroadcastsInDim S8x2048x32x32x4 (![0, 1, 2, 3, 4] : Fin 5 → Fin S8x2048x32x32x4.rank)
  reducesTo_S8x2048x32x32x4_S8x2048x32x32_d4 : S8x2048x32x32x4.ReducesTo [4] S8x2048x32x32
  bcast_S_S8x2048x32x32 : S_.BroadcastsInDim S8x2048x32x32 (![] : Fin 0 → Fin S8x2048x32x32.rank)
  bcast_S8x2048x32_S8x2048x1x32_0_1_3 : S8x2048x32.BroadcastsInDim S8x2048x1x32 (![0, 1, 3] : Fin 3 → Fin S8x2048x1x32.rank)
  bcast_S8x2048x32x1_S8x2048x32x32_0_1_2_3 : S8x2048x32x1.BroadcastsInDim S8x2048x32x32 (![0, 1, 2, 3] : Fin 4 → Fin S8x2048x32x32.rank)
  bcast_S8x2048x1x32_S8x2048x32x32_0_1_2_3 : S8x2048x1x32.BroadcastsInDim S8x2048x32x32 (![0, 1, 2, 3] : Fin 4 → Fin S8x2048x32x32.rank)
  dot_S8x2048x32x32_S8x2048x32x4_S8x2048x32x4_3_2_2_3_01_01_wf : DotDims.WF S8x2048x32x32 S8x2048x32x4 S8x2048x32x4 [3] [2] [2] [3] [0, 1] [0, 1]

variable [Facts₀]

def dot_S8x2048x32x32_S8x2048x32x4_S8x2048x32x4_3_2_2_3_01_01 : DotDims S8x2048x32x32 S8x2048x32x4 S8x2048x32x4 where
  lhsContracting := [3]
  rhsContracting := [2]
  lhsNonContracting := [2]
  rhsNonContracting := [3]
  lhsBatch := [0, 1]
  rhsBatch := [0, 1]
  wf := dot_S8x2048x32x32_S8x2048x32x4_S8x2048x32x4_3_2_2_3_01_01_wf

class Facts : Prop extends Facts₀ where

variable [Facts]
-- ==== Proof.Spec.lean ====
/-
  The update of one row, as mathematics.

  A row holds 32 cells; cell `i` carries four channels `h i 0 … h i 3` (E, P, G, L), an
  inflow `s i`, and weights `w i j` to every cell `j`. One step of the dynamics:

  * the self-weights are removed: `wOff i j = w i j · offDiag i j`, `offDiag` being 0 on the diagonal, 1 off it;
  * each channel's neighbour mean is `neigh i c = (∑ j, wOff i j · h j c) / (∑ j, wOff i j + ε)`;
  * the four channels are updated by affine expressions of the old channels, the inflow and the neighbour
    means, each clamped to [0, 1] (`eNew`, `pNew`, `gNew`, `lNew`; `hNew i c` is channel `c`);
  * the distance between the updated cells `i` and `j` is the Euclidean one over the four channels,
    `dist i j = √(∑ c, (hNew i c − hNew j c)²)`, taken to be 0 where the sum of squares is 0;
  * the weight moves toward that distance, scaled by the mean of the two cells' L channels, decays,
    is clamped to [0, 1], and loses its diagonal again (`wNew`).

  Everything is over the extended reals; every float literal is the extended real its binary word denotes.
  The whole arrays `GH`, `GW` apply the row update at every (batch, time) pair.
-/
import Idealize.ShloMosaic.PureOps.Ideal
import Idealize.ShloMosaic.Lib.ValueIdx

noncomputable section

namespace Cert.Spec

open Idealize.ShloMosaic Idealize.ShloMosaic.ValueIdx

/-- The extended real a 32-bit float word denotes. -/
abbrev lit (b : BitVec 32) : EReal := Ideal.ofBits .f32 b

/-- Clamping to [0, 1]. -/
def clamp01 (x : EReal) : EReal := min (lit 0x3F800000#32) (max (lit 0x00000000#32) x)

/-- 1 on the diagonal, 0 off it. -/
def eye (i j : Fin 32) : EReal := if i.val = j.val then 1 else 0

/-- 0 on the diagonal, 1 off it. -/
def offDiag (i j : Fin 32) : EReal := lit 0x3F800000#32 - eye i j

section Row

variable (h : Fin 32 → Fin 4 → EReal) (w : Fin 32 → Fin 32 → EReal) (s : Fin 32 → EReal)

/-- The weights without the self-connections. -/
def wOff (i j : Fin 32) : EReal := w i j * offDiag i j

/-- The weighted mean of channel `c` over the neighbours of cell `i`. -/
def neigh (i : Fin 32) (c : Fin 4) : EReal :=
  Ideal.div (∑ j : Fin 32, wOff w i j * h j c) ((∑ j : Fin 32, wOff w i j) + lit 0x322BCC77#32)

def eNew (i : Fin 32) : EReal :=
  clamp01 (((h i 0 + lit 0x3E99999A#32 * s i) - lit 0x3ECCCCCD#32 * h i 1) - lit 0x3E4CCCCD#32 * h i 2)

def pNew (i : Fin 32) : EReal :=
  clamp01 (((h i 1 + lit 0x3F000000#32 * s i) + lit 0x3E99999A#32 * (neigh h w i 1 - h i 1)) - lit 0x3E4CCCCD#32 * h i 0)

def gNew (i : Fin 32) : EReal :=
  clamp01 (((h i 2 + (lit 0x3ECCCCCD#32 * h i 0) * (lit 0x3F800000#32 - h i 1)) + lit 0x3E4CCCCD#32 * (neigh h w i 2 - h i 2))
    - lit 0x3E99999A#32 * h i 1)

def lNew (i : Fin 32) : EReal :=
  clamp01 (((h i 3 + lit 0x3ECCCCCD#32 * (lit 0x3F000000#32 * neigh h w i 0 + lit 0x3F000000#32 * neigh h w i 2))
    + lit 0x3E99999A#32 * (neigh h w i 3 - h i 3)) - lit 0x3E99999A#32 * h i 1)

/-- The updated channels of cell `i`. -/
def hNew (i : Fin 32) (c : Fin 4) : EReal := ![eNew h s i, pNew h w s i, gNew h w i, lNew h w i] c

/-- The squared distance between the updated cells `i` and `j`. -/
def sqDist (i j : Fin 32) : EReal := ∑ c : Fin 4, (hNew h w s i c - hNew h w s j c) * (hNew h w s i c - hNew h w s j c)

/-- Their distance, 0 where the squared distance is not positive. -/
def dist (i j : Fin 32) : EReal :=
  Scalar.select (FloatOps.cmpf (F := Ideal) (φ := .f32) .ogt (sqDist h w s i j) (lit 0x00000000#32))
    (Ideal.sqrt (Scalar.select (FloatOps.cmpf (F := Ideal) (φ := .f32) .ogt (sqDist h w s i j) (lit 0x00000000#32)) (sqDist h w s i j) (lit 0x3F800000#32)))
    (lit 0x00000000#32)

/-- The updated weight from cell `i` to cell `j`. -/
def wNew (i j : Fin 32) : EReal :=
  clamp01 ((w i j + (lit 0x3DCCCCCD#32 * (lit 0x3F000000#32 * (lNew h w i + lNew h w j))) * dist h w s i j) - lit 0x3D4CCCCD#32 * w i j)
    * offDiag i j

end Row

/-! ## The whole arrays -/

abbrev SH : Shape := ⟨4, ![8, 2048, 32, 4]⟩
abbrev SW : Shape := ⟨4, ![8, 2048, 32, 32]⟩
abbrev SS : Shape := ⟨3, ![8, 2048, 32]⟩

/-- Row (b, t) of each argument. -/
def rowH (x0 : SH.Idx → EReal) (b : Fin 8) (t : Fin 2048) : Fin 32 → Fin 4 → EReal := fun i c => x0 (ix4 b t i c)
def rowW (x1 : SW.Idx → EReal) (b : Fin 8) (t : Fin 2048) : Fin 32 → Fin 32 → EReal := fun i j => x1 (ix4 b t i j)
def rowS (x2 : SS.Idx → EReal) (b : Fin 8) (t : Fin 2048) : Fin 32 → EReal := fun i => x2 (ix3 b t i)

/-- The updated channels, every row. -/
def GH (x0 : SH.Idx → EReal) (x1 : SW.Idx → EReal) (x2 : SS.Idx → EReal) : SH.Idx → EReal := fun y =>
  hNew (rowH x0 (y 0) (y 1)) (rowW x1 (y 0) (y 1)) (rowS x2 (y 0) (y 1)) (y 2) (y 3)

/-- The updated weights, every row. -/
def GW (x0 : SH.Idx → EReal) (x1 : SW.Idx → EReal) (x2 : SS.Idx → EReal) : SW.Idx → EReal := fun y =>
  wNew (rowH x0 (y 0) (y 1)) (rowW x1 (y 0) (y 1)) (rowS x2 (y 0) (y 1)) (y 2) (y 3)

theorem GH_apply (x0 : SH.Idx → EReal) (x1 : SW.Idx → EReal) (x2 : SS.Idx → EReal) (b : Fin 8) (t : Fin 2048) (i : Fin 32) (c : Fin 4) :
    GH x0 x1 x2 (ix4 b t i c) = hNew (rowH x0 b t) (rowW x1 b t) (rowS x2 b t) i c := rfl

theorem GW_apply (x0 : SH.Idx → EReal) (x1 : SW.Idx → EReal) (x2 : SS.Idx → EReal) (b : Fin 8) (t : Fin 2048) (i j : Fin 32) :
    GW x0 x1 x2 (ix4 b t i j) = wNew (rowH x0 b t) (rowW x1 b t) (rowS x2 b t) i j := rfl

end Cert.Spec

end
-- ==== Proof.RefA.lean ====
/-
  The reference's first stages, each read at one index: the identity mask built from two iotas, the weights
  without their diagonal, the neighbour means (a contraction over the 32 cells divided by a row sum plus ε), and the
  four channels of the cells.
-/
import proofs.«107930_j72782515798418_2_alg».proof.Proof.Gen.ReferenceIdeal.Read
import proofs.«107930_j72782515798418_2_alg».proof.Proof.Spec

noncomputable section

namespace Cert.RefValue

open Idealize.ShloMosaic Idealize.ShloMosaic.ValueIdx Cert.ReferenceIdeal Cert.ReferenceIdeal.Read Cert.Spec

/-- The three argument arrays' types. -/
abbrev AH := (⟨S8x2048x32x4, .f32⟩ : BufTy).Contents (Elt Ideal)
abbrev AW := (⟨S8x2048x32x32, .f32⟩ : BufTy).Contents (Elt Ideal)
abbrev AS := (⟨S8x2048x32, .f32⟩ : BufTy).Contents (Elt Ideal)

/-- Two coordinates below 32 written as 32-bit words are the same word exactly when they are the same number. -/
theorem eyeBit (i j : Fin 32) :
    IntOp.cmpi .eq (IntOp.addi (BitVec.ofNat 32 i.val) 0#32) (BitVec.ofNat 32 j.val) = if i.val = j.val then 1#1 else 0#1 := by
  have hi := i.isLt
  have hj := j.isLt
  simp only [IntOp.cmpi, IntOp.addi, BitVec.add_zero]
  by_cases h : i.val = j.val
  · rw [if_pos h, h]; simp
  · rw [if_neg h]
    have hne : (BitVec.ofNat 32 i.val == BitVec.ofNat 32 j.val) = false := by
      rw [beq_eq_false_iff_ne]
      intro e
      have e' := congrArg BitVec.toNat e
      simp only [BitVec.toNat_ofNat] at e'
      omega
    rw [hne]; rfl

/-- The identity matrix the reference builds from two iotas. -/
theorem eye_ref (i j : Fin 32) : val_main_v5 (F := Ideal) (ix2 i j) = eye i j := by
  rw [val_main_v5_apply, val_main_v4_apply, val_main_v3_apply, val_main_v0_apply, val_main_v1_apply, val_main_v2_apply,
    val_main_c_apply]
  show (((IntOp.cmpi .eq (IntOp.addi (BitVec.ofNat 32 i.val) 0#32) (BitVec.ofNat 32 j.val)).toNat : ℝ) : EReal) = eye i j
  rw [eyeBit]
  unfold eye
  by_cases h : i.val = j.val
  · rw [if_pos h, if_pos h]; simp
  · rw [if_neg h, if_neg h]; simp

/-- 0 on the diagonal, 1 off it, at every row. -/
theorem offDiag_ref (b : Fin 8) (t : Fin 2048) (i j : Fin 32) :
    val_main_v9 (F := Ideal) (ix4 b t i j) = offDiag i j := by
  have e9 : idx_main_v8 (idx_main_v9 (ix4 b t i j)) = ix2 i j :=
    funext fun a => Fin.ext (by match a with | ⟨0, _⟩ => rfl | ⟨1, _⟩ => rfl)
  rw [val_main_v9_apply, val_main_v8_apply, e9, val_main_v7_apply, val_main_v6_apply, val_main_cst_apply, eye_ref]
  rfl

/-- The same mask, built a second time for the updated weights. -/
theorem offDiag_ref' (b : Fin 8) (t : Fin 2048) (i j : Fin 32) :
    val_main_v122 (F := Ideal) (ix4 b t i j) = offDiag i j := by
  have e9 : idx_main_v121 (idx_main_v122 (ix4 b t i j)) = ix2 i j :=
    funext fun a => Fin.ext (by match a with | ⟨0, _⟩ => rfl | ⟨1, _⟩ => rfl)
  rw [val_main_v122_apply, val_main_v121_apply, e9, val_main_v120_apply, val_main_v119_apply, val_main_cst_35_apply, eye_ref]
  rfl

/-- The weights without the self-connections. -/
theorem wOff_ref (x1 : AW) (b : Fin 8) (t : Fin 2048) (i j : Fin 32) :
    val_main_v10 (F := Ideal) x1 (ix4 b t i j) = wOff (rowW x1 b t) i j := by
  rw [val_main_v10_apply, offDiag_ref]
  rfl

/-- The neighbour mean. -/
theorem neigh_ref (x0 : AH) (x1 : AW) (b : Fin 8) (t : Fin 2048) (i : Fin 32) (c : Fin 4) :
    val_main_v17 (F := Ideal) x0 x1 (ix4 b t i c) = neigh (rowH x0 b t) (rowW x1 b t) i c := by
  have el : ∀ k : Fin 32, lidx_main_v11 (ix4 b t i c) k = ix4 b t i k := fun k =>
    funext fun a => Fin.ext (by match a with | ⟨0, _⟩ => rfl | ⟨1, _⟩ => rfl | ⟨2, _⟩ => rfl | ⟨3, _⟩ => rfl)
  have er : ∀ k : Fin 32, ridx_main_v11 (ix4 b t i c) k = ix4 b t k c := fun k =>
    funext fun a => Fin.ext (by match a with | ⟨0, _⟩ => rfl | ⟨1, _⟩ => rfl | ⟨2, _⟩ => rfl | ⟨3, _⟩ => rfl)
  have es : ∀ k : Fin 32, idx_main_v12 (idx_main_v13 (idx_main_v16 (ix4 b t i c))) k = ix4 b t i k := fun k =>
    funext fun a => Fin.ext (by match a with | ⟨0, _⟩ => rfl | ⟨1, _⟩ => rfl | ⟨2, _⟩ => rfl | ⟨3, _⟩ => rfl)
  rw [val_main_v17_apply, val_main_v11_apply, val_main_v16_apply, val_main_v15_apply, val_main_v13_apply,
    val_main_v12_apply, val_main_v14_apply, val_main_cst_1_apply, val_main_cst_0_apply]
  simp only [el, er, es, wOff_ref, Ideal.ofBits_def, Ideal.ofBits_zero_f32, zero_add]
  rfl

/-- Channel 0 of the cells, read off the argument. -/
theorem h0_ref (x0 : AH) (b : Fin 8) (t : Fin 2048) (i : Fin 32) :
    val_main_v19 (F := Ideal) x0 (ix3 b t i) = x0 (ix4 b t i (0 : Fin 4)) := by
  rw [val_main_v19_apply, val_main_v18_apply]
  congr 1
  funext a
  refine Fin.ext ?_
  have hb := b.isLt; have ht := t.isLt; have hi := i.isLt
  match a with
  | ⟨0, _⟩ => show ((b.val * 2048 + t.val) * 32 + i.val) / 65536 = b.val; omega
  | ⟨1, _⟩ => show ((b.val * 2048 + t.val) * 32 + i.val) / 32 % 2048 = t.val; omega
  | ⟨2, _⟩ => show ((b.val * 2048 + t.val) * 32 + i.val) / 1 % 32 = i.val; omega
  | ⟨3, _⟩ => rfl

/-- Channel 1 of the cells, read off the argument. -/
theorem h1_ref (x0 : AH) (b : Fin 8) (t : Fin 2048) (i : Fin 32) :
    val_main_v21 (F := Ideal) x0 (ix3 b t i) = x0 (ix4 b t i (1 : Fin 4)) := by
  rw [val_main_v21_apply, val_main_v20_apply]
  congr 1
  funext a
  refine Fin.ext ?_
  have hb := b.isLt; have ht := t.isLt; have hi := i.isLt
  match a with
  | ⟨0, _⟩ => show ((b.val * 2048 + t.val) * 32 + i.val) / 65536 = b.val; omega
  | ⟨1, _⟩ => show ((b.val * 2048 + t.val) * 32 + i.val) / 32 % 2048 = t.val; omega
  | ⟨2, _⟩ => show ((b.val * 2048 + t.val) * 32 + i.val) / 1 % 32 = i.val; omega
  | ⟨3, _⟩ => rfl

/-- Channel 2 of the cells, read off the argument. -/
theorem h2_ref (x0 : AH) (b : Fin 8) (t : Fin 2048) (i : Fin 32) :
    val_main_v23 (F := Ideal) x0 (ix3 b t i) = x0 (ix4 b t i (2 : Fin 4)) := by
  rw [val_main_v23_apply, val_main_v22_apply]
  congr 1
  funext a
  refine Fin.ext ?_
  have hb := b.isLt; have ht := t.isLt; have hi := i.isLt
  match a with
  | ⟨0, _⟩ => show ((b.val * 2048 + t.val) * 32 + i.val) / 65536 = b.val; omega
  | ⟨1, _⟩ => show ((b.val * 2048 + t.val) * 32 + i.val) / 32 % 2048 = t.val; omega
  | ⟨2, _⟩ => show ((b.val * 2048 + t.val) * 32 + i.val) / 1 % 32 = i.val; omega
  | ⟨3, _⟩ => rfl

/-- Channel 3 of the cells, read off the argument. -/
theorem h3_ref (x0 : AH) (b : Fin 8) (t : Fin 2048) (i : Fin 32) :
    val_main_v25 (F := Ideal) x0 (ix3 b t i) = x0 (ix4 b t i (3 : Fin 4)) := by
  rw [val_main_v25_apply, val_main_v24_apply]
  congr 1
  funext a
  refine Fin.ext ?_
  have hb := b.isLt; have ht := t.isLt; have hi := i.isLt
  match a with
  | ⟨0, _⟩ => show ((b.val * 2048 + t.val) * 32 + i.val) / 65536 = b.val; omega
  | ⟨1, _⟩ => show ((b.val * 2048 + t.val) * 32 + i.val) / 32 % 2048 = t.val; omega
  | ⟨2, _⟩ => show ((b.val * 2048 + t.val) * 32 + i.val) / 1 % 32 = i.val; omega
  | ⟨3, _⟩ => rfl

end Cert.RefValue

end
-- ==== Proof.RefN.lean ====
/-
  The four channels of the neighbour means, each read at one index.
-/
import proofs.«107930_j72782515798418_2_alg».proof.Proof.Gen.ReferenceIdeal.Read
import proofs.«107930_j72782515798418_2_alg».proof.Proof.Spec
import proofs.«107930_j72782515798418_2_alg».proof.Proof.RefA

noncomputable section

namespace Cert.RefValue

open Idealize.ShloMosaic Idealize.ShloMosaic.ValueIdx Cert.ReferenceIdeal Cert.ReferenceIdeal.Read Cert.Spec

/-- Channel 0 of the neighbour means. -/
theorem n0_ref (x0 : AH) (x1 : AW) (b : Fin 8) (t : Fin 2048) (i : Fin 32) :
    val_main_v27 (F := Ideal) x0 x1 (ix3 b t i) = neigh (rowH x0 b t) (rowW x1 b t) i (0 : Fin 4) := by
  have e : idx_main_v26 (idx_main_v27 (ix3 b t i)) = ix4 b t i (0 : Fin 4) := by
    funext a
    refine Fin.ext ?_
    have hb := b.isLt; have ht := t.isLt; have hi := i.isLt
    match a with
    | ⟨0, _⟩ => show ((b.val * 2048 + t.val) * 32 + i.val) / 65536 = b.val; omega
    | ⟨1, _⟩ => show ((b.val * 2048 + t.val) * 32 + i.val) / 32 % 2048 = t.val; omega
    | ⟨2, _⟩ => show ((b.val * 2048 + t.val) * 32 + i.val) / 1 % 32 = i.val; omega
    | ⟨3, _⟩ => rfl
  rw [val_main_v27_apply, val_main_v26_apply, e, neigh_ref]

/-- Channel 1 of the neighbour means. -/
theorem n1_ref (x0 : AH) (x1 : AW) (b : Fin 8) (t : Fin 2048) (i : Fin 32) :
    val_main_v29 (F := Ideal) x0 x1 (ix3 b t i) = neigh (rowH x0 b t) (rowW x1 b t) i (1 : Fin 4) := by
  have e : idx_main_v28 (idx_main_v29 (ix3 b t i)) = ix4 b t i (1 : Fin 4) := by
    funext a
    refine Fin.ext ?_
    have hb := b.isLt; have ht := t.isLt; have hi := i.isLt
    match a with
    | ⟨0, _⟩ => show ((b.val * 2048 + t.val) * 32 + i.val) / 65536 = b.val; omega
    | ⟨1, _⟩ => show ((b.val * 2048 + t.val) * 32 + i.val) / 32 % 2048 = t.val; omega
    | ⟨2, _⟩ => show ((b.val * 2048 + t.val) * 32 + i.val) / 1 % 32 = i.val; omega
    | ⟨3, _⟩ => rfl
  rw [val_main_v29_apply, val_main_v28_apply, e, neigh_ref]

/-- Channel 2 of the neighbour means. -/
theorem n2_ref (x0 : AH) (x1 : AW) (b : Fin 8) (t : Fin 2048) (i : Fin 32) :
    val_main_v31 (F := Ideal) x0 x1 (ix3 b t i) = neigh (rowH x0 b t) (rowW x1 b t) i (2 : Fin 4) := by
  have e : idx_main_v30 (idx_main_v31 (ix3 b t i)) = ix4 b t i (2 : Fin 4) := by
    funext a
    refine Fin.ext ?_
    have hb := b.isLt; have ht := t.isLt; have hi := i.isLt
    match a with
    | ⟨0, _⟩ => show ((b.val * 2048 + t.val) * 32 + i.val) / 65536 = b.val; omega
    | ⟨1, _⟩ => show ((b.val * 2048 + t.val) * 32 + i.val) / 32 % 2048 = t.val; omega
    | ⟨2, _⟩ => show ((b.val * 2048 + t.val) * 32 + i.val) / 1 % 32 = i.val; omega
    | ⟨3, _⟩ => rfl
  rw [val_main_v31_apply, val_main_v30_apply, e, neigh_ref]

/-- Channel 3 of the neighbour means. -/
theorem n3_ref (x0 : AH) (x1 : AW) (b : Fin 8) (t : Fin 2048) (i : Fin 32) :
    val_main_v33 (F := Ideal) x0 x1 (ix3 b t i) = neigh (rowH x0 b t) (rowW x1 b t) i (3 : Fin 4) := by
  have e : idx_main_v32 (idx_main_v33 (ix3 b t i)) = ix4 b t i (3 : Fin 4) := by
    funext a
    refine Fin.ext ?_
    have hb := b.isLt; have ht := t.isLt; have hi := i.isLt
    match a with
    | ⟨0, _⟩ => show ((b.val * 2048 + t.val) * 32 + i.val) / 65536 = b.val; omega
    | ⟨1, _⟩ => show ((b.val * 2048 + t.val) * 32 + i.val) / 32 % 2048 = t.val; omega
    | ⟨2, _⟩ => show ((b.val * 2048 + t.val) * 32 + i.val) / 1 % 32 = i.val; omega
    | ⟨3, _⟩ => rfl
  rw [val_main_v33_apply, val_main_v32_apply, e, neigh_ref]

end Cert.RefValue

end
-- ==== Proof.RefEP.lean ====
/-
  The updated E and P channels: affine expressions of the old channels, the inflow and the neighbour means, clamped
  to [0, 1].
-/
import proofs.«107930_j72782515798418_2_alg».proof.Proof.Gen.ReferenceIdeal.Read
import proofs.«107930_j72782515798418_2_alg».proof.Proof.Spec
import proofs.«107930_j72782515798418_2_alg».proof.Proof.RefN

noncomputable section

namespace Cert.RefValue

open Idealize.ShloMosaic Idealize.ShloMosaic.ValueIdx Cert.ReferenceIdeal Cert.ReferenceIdeal.Read Cert.Spec

/-- The updated E channel. -/
theorem eNew_ref (x0 : AH) (x2 : AS) (b : Fin 8) (t : Fin 2048) (i : Fin 32) :
    val_main_v43 (F := Ideal) x0 x2 (ix3 b t i) = eNew (rowH x0 b t) (rowS x2 b t) i := by
  simp only [
    val_main_v43_apply, val_main_call0_v4_apply, val_main_call0_v3_apply, val_main_cst_6_apply,
    val_main_call0_v2_apply, val_main_call0_v1_apply, val_main_call0_v0_apply, val_main_cst_5_apply,
    val_main_v42_apply, val_main_v39_apply, val_main_v36_apply, h0_ref, val_main_v35_apply, val_main_v34_apply,
    val_main_cst_2_apply, val_main_v38_apply, val_main_v37_apply, val_main_cst_3_apply, h1_ref, val_main_v41_apply,
    val_main_v40_apply, val_main_cst_4_apply, h2_ref]
  rfl

/-- The updated P channel. -/
theorem pNew_ref (x0 : AH) (x1 : AW) (x2 : AS) (b : Fin 8) (t : Fin 2048) (i : Fin 32) :
    val_main_v54 (F := Ideal) x0 x1 x2 (ix3 b t i) = pNew (rowH x0 b t) (rowW x1 b t) (rowS x2 b t) i := by
  simp only [
    val_main_v54_apply, val_main_call1_v4_apply, val_main_call1_v3_apply, val_main_cst_11_apply,
    val_main_call1_v2_apply, val_main_call1_v1_apply, val_main_call1_v0_apply, val_main_cst_10_apply,
    val_main_v53_apply, val_main_v50_apply, val_main_v46_apply, h1_ref, val_main_v45_apply, val_main_v44_apply,
    val_main_cst_7_apply, val_main_v49_apply, val_main_v48_apply, val_main_cst_8_apply, val_main_v47_apply, n1_ref,
    val_main_v52_apply, val_main_v51_apply, val_main_cst_9_apply, h0_ref]
  rfl

end Cert.RefValue

end
-- ==== Proof.RefGL.lean ====
/-
  The updated G and L channels: affine expressions of the old channels and the neighbour means (G with one product of
  two channels), clamped to [0, 1].
-/
import proofs.«107930_j72782515798418_2_alg».proof.Proof.Gen.ReferenceIdeal.Read
import proofs.«107930_j72782515798418_2_alg».proof.Proof.Spec
import proofs.«107930_j72782515798418_2_alg».proof.Proof.RefN

noncomputable section

namespace Cert.RefValue

open Idealize.ShloMosaic Idealize.ShloMosaic.ValueIdx Cert.ReferenceIdeal Cert.ReferenceIdeal.Read Cert.Spec

/-- The updated G channel. -/
theorem gNew_ref (x0 : AH) (x1 : AW) (b : Fin 8) (t : Fin 2048) (i : Fin 32) :
    val_main_v68 (F := Ideal) x0 x1 (ix3 b t i) = gNew (rowH x0 b t) (rowW x1 b t) i := by
  simp only [
    val_main_v68_apply, val_main_call2_v4_apply, val_main_call2_v3_apply, val_main_cst_17_apply,
    val_main_call2_v2_apply, val_main_call2_v1_apply, val_main_call2_v0_apply, val_main_cst_16_apply,
    val_main_v67_apply, val_main_v64_apply, val_main_v60_apply, h2_ref, val_main_v59_apply, val_main_v56_apply,
    val_main_v55_apply, val_main_cst_12_apply, h0_ref, val_main_v58_apply, val_main_v57_apply, val_main_cst_13_apply,
    h1_ref, val_main_v63_apply, val_main_v62_apply, val_main_cst_14_apply, val_main_v61_apply, n2_ref,
    val_main_v66_apply, val_main_v65_apply, val_main_cst_15_apply]
  rfl

/-- The updated L channel. -/
theorem lNew_ref (x0 : AH) (x1 : AW) (b : Fin 8) (t : Fin 2048) (i : Fin 32) :
    val_main_v84 (F := Ideal) x0 x1 (ix3 b t i) = lNew (rowH x0 b t) (rowW x1 b t) i := by
  simp only [
    val_main_v84_apply, val_main_call3_v4_apply, val_main_call3_v3_apply, val_main_cst_24_apply,
    val_main_call3_v2_apply, val_main_call3_v1_apply, val_main_call3_v0_apply, val_main_cst_23_apply,
    val_main_v83_apply, val_main_v80_apply, val_main_v76_apply, h3_ref, val_main_v75_apply, val_main_v74_apply,
    val_main_cst_20_apply, val_main_v73_apply, val_main_v70_apply, val_main_v69_apply, val_main_cst_18_apply, n0_ref,
    val_main_v72_apply, val_main_v71_apply, val_main_cst_19_apply, n2_ref, val_main_v79_apply, val_main_v78_apply,
    val_main_cst_21_apply, val_main_v77_apply, n3_ref, val_main_v82_apply, val_main_v81_apply, val_main_cst_22_apply,
    h1_ref]
  rfl

end Cert.RefValue

end
-- ==== Proof.RefH.lean ====
/-
  The updated channels side by side: four single-column arrays joined along the last axis, column `c` being the
  `c`-th update.
-/
import proofs.«107930_j72782515798418_2_alg».proof.Proof.Gen.ReferenceIdeal.Read
import proofs.«107930_j72782515798418_2_alg».proof.Proof.Spec
import proofs.«107930_j72782515798418_2_alg».proof.Proof.RefEP
import proofs.«107930_j72782515798418_2_alg».proof.Proof.RefGL

noncomputable section

namespace Cert.RefValue

open Idealize.ShloMosaic Idealize.ShloMosaic.ValueIdx Cert.ReferenceIdeal Cert.ReferenceIdeal.Read Cert.Spec

/-- Four single-column arrays joined along the last axis: column `c` of the result is piece `c`. -/
theorem concat4_apply (p0 p1 p2 p3 : S8x2048x32x1.Idx → EReal)
    (h : Shape.Concatenates [S8x2048x32x1, S8x2048x32x1, S8x2048x32x1, S8x2048x32x1] S8x2048x32x4 3)
    (b : Fin 8) (t : Fin 2048) (i : Fin 32) (c : Fin 4) :
    concatenate S8x2048x32x4 3
        [⟨S8x2048x32x1, p0⟩, ⟨S8x2048x32x1, p1⟩, ⟨S8x2048x32x1, p2⟩, ⟨S8x2048x32x1, p3⟩] h (ix4 b t i c)
      = (![p0, p1, p2, p3] c) (ix4 b t i (0 : Fin 1)) := by
  have hoff : ∀ (k : Fin 4) (bb : Fin S8x2048x32x1.rank), bb.cast rfl ≠ (3 : Fin S8x2048x32x4.rank) →
      ((ix4 b t i (0 : Fin 1) : S8x2048x32x1.Idx) bb).val = ((ix4 b t i k : S8x2048x32x4.Idx) (bb.cast rfl)).val := by
    intro k bb hb
    match bb, hb with
    | ⟨0, _⟩, _ => rfl
    | ⟨1, _⟩, _ => rfl
    | ⟨2, _⟩, _ => rfl
    | ⟨3, _⟩, hb => exact absurd rfl hb
  let pieces : List ((s : Shape) × (s.Idx → EReal)) :=
    [⟨S8x2048x32x1, p0⟩, ⟨S8x2048x32x1, p1⟩, ⟨S8x2048x32x1, p2⟩, ⟨S8x2048x32x1, p3⟩]
  match c with
  | ⟨0, _⟩ =>
    exact concatenate_apply_piece (t := S8x2048x32x4) 3 pieces h _ 0 (show (0 : Nat) < 4 by decide) S8x2048x32x1 p0 rfl rfl 0 rfl
      (ix4 b t i (0 : Fin 1)) (hoff 0) rfl
  | ⟨1, _⟩ =>
    exact concatenate_apply_piece (t := S8x2048x32x4) 3 pieces h _ 1 (show (1 : Nat) < 4 by decide) S8x2048x32x1 p1 rfl rfl 1 rfl
      (ix4 b t i (0 : Fin 1)) (hoff 1) rfl
  | ⟨2, _⟩ =>
    exact concatenate_apply_piece (t := S8x2048x32x4) 3 pieces h _ 2 (show (2 : Nat) < 4 by decide) S8x2048x32x1 p2 rfl rfl 2 rfl
      (ix4 b t i (0 : Fin 1)) (hoff 2) rfl
  | ⟨3, _⟩ =>
    exact concatenate_apply_piece (t := S8x2048x32x4) 3 pieces h _ 3 (show (3 : Nat) < 4 by decide) S8x2048x32x1 p3 rfl rfl 3 rfl
      (ix4 b t i (0 : Fin 1)) (hoff 3) rfl

/-- The updated channels: the four updates side by side. -/
theorem hNew_ref (x0 : AH) (x1 : AW) (x2 : AS) (b : Fin 8) (t : Fin 2048) (i : Fin 32) (c : Fin 4) :
    val_main_v89 (F := Ideal) x0 x1 x2 (ix4 b t i c) = hNew (rowH x0 b t) (rowW x1 b t) (rowS x2 b t) i c := by
  have e : ∀ z : Fin 1, (ix4 b t i z : S8x2048x32x1.Idx) = ix4 b t i (0 : Fin 1) := fun z => by
    rw [Subsingleton.elim z 0]
  have e85 : idx_main_v85 (ix4 b t i (0 : Fin 1)) = ix3 b t i :=
    funext fun a => Fin.ext (by match a with | ⟨0, _⟩ => rfl | ⟨1, _⟩ => rfl | ⟨2, _⟩ => rfl)
  have e86 : idx_main_v86 (ix4 b t i (0 : Fin 1)) = ix3 b t i :=
    funext fun a => Fin.ext (by match a with | ⟨0, _⟩ => rfl | ⟨1, _⟩ => rfl | ⟨2, _⟩ => rfl)
  have e87 : idx_main_v87 (ix4 b t i (0 : Fin 1)) = ix3 b t i :=
    funext fun a => Fin.ext (by match a with | ⟨0, _⟩ => rfl | ⟨1, _⟩ => rfl | ⟨2, _⟩ => rfl)
  have e88 : idx_main_v88 (ix4 b t i (0 : Fin 1)) = ix3 b t i :=
    funext fun a => Fin.ext (by match a with | ⟨0, _⟩ => rfl | ⟨1, _⟩ => rfl | ⟨2, _⟩ => rfl)
  refine (concat4_apply (val_main_v85 (F := Ideal) x0 x2) (val_main_v86 (F := Ideal) x0 x1 x2)
    (val_main_v87 (F := Ideal) x0 x1) (val_main_v88 (F := Ideal) x0 x1) _ b t i c).trans ?_
  match c with
  | ⟨0, _⟩ => show val_main_v85 (F := Ideal) x0 x2 (ix4 b t i (0 : Fin 1)) = _; rw [val_main_v85_apply, e85, eNew_ref]; rfl
  | ⟨1, _⟩ => show val_main_v86 (F := Ideal) x0 x1 x2 (ix4 b t i (0 : Fin 1)) = _; rw [val_main_v86_apply, e86, pNew_ref]; rfl
  | ⟨2, _⟩ => show val_main_v87 (F := Ideal) x0 x1 (ix4 b t i (0 : Fin 1)) = _; rw [val_main_v87_apply, e87, gNew_ref]; rfl
  | ⟨3, _⟩ => show val_main_v88 (F := Ideal) x0 x1 (ix4 b t i (0 : Fin 1)) = _; rw [val_main_v88_apply, e88, lNew_ref]; rfl

end Cert.RefValue

end
-- ==== Proof.RefD.lean ====
/-
  The squared distance between two updated cells, a sum over the four channels, and the distance: its square root where
  it is positive, 0 elsewhere.
-/
import proofs.«107930_j72782515798418_2_alg».proof.Proof.Gen.ReferenceIdeal.Read
import proofs.«107930_j72782515798418_2_alg».proof.Proof.Spec
import proofs.«107930_j72782515798418_2_alg».proof.Proof.RefH

noncomputable section

namespace Cert.RefValue

open Idealize.ShloMosaic Idealize.ShloMosaic.ValueIdx Cert.ReferenceIdeal Cert.ReferenceIdeal.Read Cert.Spec

/-- The squared distance between two updated cells: the sum over the four channels. -/
theorem sqDist_ref (x0 : AH) (x1 : AW) (x2 : AS) (b : Fin 8) (t : Fin 2048) (i j : Fin 32) :
    val_main_v96 (F := Ideal) x0 x1 x2 (ix4 b t i j) = sqDist (rowH x0 b t) (rowW x1 b t) (rowS x2 b t) i j := by
  have e1 : ∀ c : Fin 4, idx_main_v90 (idx_main_v92 (idx_main_v96 (ix4 b t i j) c)) = ix4 b t i c := fun c =>
    funext fun a => Fin.ext (by match a with | ⟨0, _⟩ => rfl | ⟨1, _⟩ => rfl | ⟨2, _⟩ => rfl | ⟨3, _⟩ => rfl)
  have e2 : ∀ c : Fin 4, idx_main_v91 (idx_main_v93 (idx_main_v96 (ix4 b t i j) c)) = ix4 b t j c := fun c =>
    funext fun a => Fin.ext (by match a with | ⟨0, _⟩ => rfl | ⟨1, _⟩ => rfl | ⟨2, _⟩ => rfl | ⟨3, _⟩ => rfl)
  rw [val_main_v96_apply, val_main_cst_25_apply]
  simp only [
    val_main_v95_apply, val_main_v94_apply, val_main_v92_apply, val_main_v90_apply, hNew_ref, val_main_v93_apply,
    val_main_v91_apply, e1, e2, Ideal.ofBits_def, Ideal.ofBits_zero_f32, zero_add]
  rfl

/-- The distance: the square root where the squared distance is positive, 0 elsewhere. -/
theorem dist_ref (x0 : AH) (x1 : AW) (x2 : AS) (b : Fin 8) (t : Fin 2048) (i j : Fin 32) :
    val_main_v103 (F := Ideal) x0 x1 x2 (ix4 b t i j) = dist (rowH x0 b t) (rowW x1 b t) (rowS x2 b t) i j := by
  simp only [
    val_main_v103_apply, val_main_v98_apply, sqDist_ref, val_main_v97_apply, val_main_cst_26_apply,
    val_main_v102_apply, val_main_v101_apply, val_main_v100_apply, val_main_v99_apply, val_main_cst_27_apply,
    val_main_call4_v1_apply, val_main_call4_v0_apply, val_main_cst_28_apply, val_main_call5_v1_apply,
    val_main_call5_v0_apply, val_main_cst_29_apply]
  rfl

end Cert.RefValue

end
-- ==== Proof.RefW.lean ====
/-
  The updated weights: the old weight moved toward the distance, scaled by the mean of the two cells' L channels,
  decayed, clamped to [0, 1], and without its diagonal.
-/
import proofs.«107930_j72782515798418_2_alg».proof.Proof.Gen.ReferenceIdeal.Read
import proofs.«107930_j72782515798418_2_alg».proof.Proof.Spec
import proofs.«107930_j72782515798418_2_alg».proof.Proof.RefD

noncomputable section

namespace Cert.RefValue

open Idealize.ShloMosaic Idealize.ShloMosaic.ValueIdx Cert.ReferenceIdeal Cert.ReferenceIdeal.Read Cert.Spec

/-- The updated weight. -/
theorem wNew_ref (x0 : AH) (x1 : AW) (x2 : AS) (b : Fin 8) (t : Fin 2048) (i j : Fin 32) :
    val_main_v123 (F := Ideal) x0 x1 x2 (ix4 b t i j) = wNew (rowH x0 b t) (rowW x1 b t) (rowS x2 b t) i j := by
  have e1 : idx_main_v104 (idx_main_v106 (ix4 b t i j)) = ix3 b t i :=
    funext fun a => Fin.ext (by match a with | ⟨0, _⟩ => rfl | ⟨1, _⟩ => rfl | ⟨2, _⟩ => rfl)
  have e2 : idx_main_v105 (idx_main_v107 (ix4 b t i j)) = ix3 b t j :=
    funext fun a => Fin.ext (by match a with | ⟨0, _⟩ => rfl | ⟨1, _⟩ => rfl | ⟨2, _⟩ => rfl)
  simp only [
    val_main_v123_apply, val_main_v118_apply, val_main_call6_v4_apply, val_main_call6_v3_apply,
    val_main_cst_34_apply, val_main_call6_v2_apply, val_main_call6_v1_apply, val_main_call6_v0_apply,
    val_main_cst_33_apply, val_main_v117_apply, val_main_v114_apply, val_main_v113_apply, val_main_v112_apply,
    val_main_v111_apply, val_main_cst_31_apply, val_main_v110_apply, val_main_v109_apply, val_main_cst_30_apply,
    val_main_v108_apply, val_main_v106_apply, val_main_v104_apply, lNew_ref, val_main_v107_apply,
    val_main_v105_apply, dist_ref, val_main_v116_apply, val_main_v115_apply, val_main_cst_32_apply, offDiag_ref', e1,
    e2]
  rfl

end Cert.RefValue

end
-- ==== Proof.RefIsSpec.lean ====
/-
  The reference program's two results are the specification's two arrays: index by index, each is the row update of
  the row the index lies in.
-/
import proofs.«107930_j72782515798418_2_alg».proof.Proof.Gen.ReferenceIdeal.Read
import proofs.«107930_j72782515798418_2_alg».proof.Proof.Spec
import proofs.«107930_j72782515798418_2_alg».proof.Proof.RefW

noncomputable section

namespace Cert.RefValue

open Idealize.ShloMosaic Idealize.ShloMosaic.ValueIdx Cert.ReferenceIdeal Cert.ReferenceIdeal.Read Cert.Spec

/-- The reference's first result is the updated channels, every row. -/
theorem ref_h (x0 : (⟨Cert.ReferenceIdeal.S8x2048x32x4, .f32⟩ : BufTy).Contents (Elt Ideal))
    (x1 : (⟨Cert.ReferenceIdeal.S8x2048x32x32, .f32⟩ : BufTy).Contents (Elt Ideal))
    (x2 : (⟨Cert.ReferenceIdeal.S8x2048x32, .f32⟩ : BufTy).Contents (Elt Ideal)) :
    Cert.ReferenceIdeal.Read.val_main_v89 (F := Ideal) x0 x1 x2 = Cert.Spec.GH x0 x1 x2 := by
  funext y
  obtain ⟨b, t, i, c, rfl⟩ : ∃ b t i c, y = ix4 b t i c := ⟨y 0, y 1, y 2, y 3, eq_ix4 y⟩
  rw [hNew_ref, GH_apply]

/-- The reference's second result is the updated weights, every row. -/
theorem ref_w (x0 : (⟨Cert.ReferenceIdeal.S8x2048x32x4, .f32⟩ : BufTy).Contents (Elt Ideal))
    (x1 : (⟨Cert.ReferenceIdeal.S8x2048x32x32, .f32⟩ : BufTy).Contents (Elt Ideal))
    (x2 : (⟨Cert.ReferenceIdeal.S8x2048x32, .f32⟩ : BufTy).Contents (Elt Ideal)) :
    Cert.ReferenceIdeal.Read.val_main_v123 (F := Ideal) x0 x1 x2 = Cert.Spec.GW x0 x1 x2 := by
  funext y
  obtain ⟨b, t, i, j, rfl⟩ : ∃ b t i j, y = ix4 b t i j := ⟨y 0, y 1, y 2, y 3, eq_ix4 y⟩
  rw [wNew_ref, GW_apply]

end Cert.RefValue

end
-- ==== Proof.KFlat.lean ====
/-
  The row update on flattened arrays.

  The kernel works on the arguments with the batch and time axes merged into one axis of rows and the
  cell axes merged into one axis of columns: channels [n, 128] (cell i's channel c at column 4·i + c),
  weights [n, 1024] (the weight from i to j at column 32·i + j), inflows [n, 32]. `GH`, `GW` apply the row
  update of `Spec` to every row of such arrays, for any number of rows `n`: a chunk of 128 rows, a block of
  1024, the whole 16384.
-/
import proofs.«107930_j72782515798418_2_alg».proof.Proof.Spec

noncomputable section

namespace Cert.Flat

open Idealize.ShloMosaic Idealize.ShloMosaic.ValueIdx

variable {n : ℕ}

/-- Row `q`: its cells' channels, -/
def rowH (A0 : (⟨2, ![n, 128]⟩ : Shape).Idx → EReal) (q : Fin n) : Fin 32 → Fin 4 → EReal :=
  fun i c => A0 (ix2 q ⟨i.val * 4 + c.val, by have := i.isLt; have := c.isLt; omega⟩)
/-- its weights, -/
def rowW (A1 : (⟨2, ![n, 1024]⟩ : Shape).Idx → EReal) (q : Fin n) : Fin 32 → Fin 32 → EReal :=
  fun i j => A1 (ix2 q ⟨i.val * 32 + j.val, by have := i.isLt; have := j.isLt; omega⟩)
/-- its inflows. -/
def rowS (A2 : (⟨2, ![n, 32]⟩ : Shape).Idx → EReal) (q : Fin n) : Fin 32 → EReal := fun i => A2 (ix2 q i)

/-- The updated channels of every row. -/
def GH (A0 : (⟨2, ![n, 128]⟩ : Shape).Idx → EReal) (A1 : (⟨2, ![n, 1024]⟩ : Shape).Idx → EReal) (A2 : (⟨2, ![n, 32]⟩ : Shape).Idx → EReal) :
    (⟨2, ![n, 128]⟩ : Shape).Idx → EReal := fun y =>
  Spec.hNew (rowH A0 ⟨(y 0).val, (y 0).isLt⟩) (rowW A1 ⟨(y 0).val, (y 0).isLt⟩) (rowS A2 ⟨(y 0).val, (y 0).isLt⟩)
    ⟨(y 1).val / 4, by have : (y 1).val < 128 := (y 1).isLt; omega⟩ ⟨(y 1).val % 4, Nat.mod_lt _ (by decide)⟩

/-- The updated weights of every row. -/
def GW (A0 : (⟨2, ![n, 128]⟩ : Shape).Idx → EReal) (A1 : (⟨2, ![n, 1024]⟩ : Shape).Idx → EReal) (A2 : (⟨2, ![n, 32]⟩ : Shape).Idx → EReal) :
    (⟨2, ![n, 1024]⟩ : Shape).Idx → EReal := fun y =>
  Spec.wNew (rowH A0 ⟨(y 0).val, (y 0).isLt⟩) (rowW A1 ⟨(y 0).val, (y 0).isLt⟩) (rowS A2 ⟨(y 0).val, (y 0).isLt⟩)
    ⟨(y 1).val / 32, by have : (y 1).val < 1024 := (y 1).isLt; omega⟩ ⟨(y 1).val % 32, Nat.mod_lt _ (by decide)⟩

theorem GH_apply (A0 : (⟨2, ![n, 128]⟩ : Shape).Idx → EReal) (A1 : (⟨2, ![n, 1024]⟩ : Shape).Idx → EReal) (A2 : (⟨2, ![n, 32]⟩ : Shape).Idx → EReal)
    (q : Fin n) (i : Fin 32) (c : Fin 4) (hl : i.val * 4 + c.val < 128) :
    GH A0 A1 A2 (ix2 q ⟨i.val * 4 + c.val, hl⟩) = Spec.hNew (rowH A0 q) (rowW A1 q) (rowS A2 q) i c := by
  have e1 : (⟨(i.val * 4 + c.val) / 4, by omega⟩ : Fin 32) = i := Fin.ext (by show (i.val * 4 + c.val) / 4 = i.val; have := c.isLt; omega)
  have e2 : (⟨(i.val * 4 + c.val) % 4, Nat.mod_lt _ (by decide)⟩ : Fin 4) = c := Fin.ext (by show (i.val * 4 + c.val) % 4 = c.val; have := c.isLt; omega)
  show Spec.hNew (rowH A0 q) (rowW A1 q) (rowS A2 q) ⟨(i.val * 4 + c.val) / 4, _⟩ ⟨(i.val * 4 + c.val) % 4, _⟩ = _
  rw [e1, e2]

theorem GW_apply (A0 : (⟨2, ![n, 128]⟩ : Shape).Idx → EReal) (A1 : (⟨2, ![n, 1024]⟩ : Shape).Idx → EReal) (A2 : (⟨2, ![n, 32]⟩ : Shape).Idx → EReal)
    (q : Fin n) (i j : Fin 32) (hl : i.val * 32 + j.val < 1024) :
    GW A0 A1 A2 (ix2 q ⟨i.val * 32 + j.val, hl⟩) = Spec.wNew (rowH A0 q) (rowW A1 q) (rowS A2 q) i j := by
  have e1 : (⟨(i.val * 32 + j.val) / 32, by omega⟩ : Fin 32) = i := Fin.ext (by show (i.val * 32 + j.val) / 32 = i.val; have := j.isLt; omega)
  have e2 : (⟨(i.val * 32 + j.val) % 32, Nat.mod_lt _ (by decide)⟩ : Fin 32) = j := Fin.ext (by show (i.val * 32 + j.val) % 32 = j.val; have := j.isLt; omega)
  show Spec.wNew (rowH A0 q) (rowW A1 q) (rowS A2 q) ⟨(i.val * 32 + j.val) / 32, _⟩ ⟨(i.val * 32 + j.val) % 32, _⟩ = _
  rw [e1, e2]

end Cert.Flat

end
-- ==== Proof.LibRank3.lean ====
/-
  Stacks of matrices read at an index given by coordinates.

  A rank-three array [a, b, c] is a stack of `a` matrices. The layout operations that move between
  such a stack, its rows flattened [a, b·c], and the columns and rows of its matrices are read here
  at indices written `ix2 r l`, `ix3 r i j`:

  * a cast [a, n] → [a, b, c] with n = b·c reads (r, i, j) at (r, i·c + j), and back;
  * a cast [a, b] → [a, b, 1] (a column per matrix) and [a, b] → [a, 1, b] (a row per matrix), and back;
  * a broadcast of one matrix [1, b, c] over the stack, of a column [a, b, 1] along the rows, of a row
    [a, 1, c] down the columns;
  * the slice of one entry of the last axis, [a, b, c] → [a, b, 1];
  * four columns [a, b, 1] laid side by side into [a, b, 4]: entry (r, i, c) is column c's entry (r, i);
  * the sum over the last axis, at the extended reals: entry (r, i) is the sum over j of (r, i, j).
-/
import Idealize.ShloMosaic.Lib.Pipeline.Value
import Idealize.ShloMosaic.Lib.ValueIdx
import Idealize.ShloMosaic.PureOps.Ideal.Laws

namespace Cert.LibRank3

open Idealize.ShloMosaic Idealize.ShloMosaic.ValueIdx

variable {α : Type}

/-- [a, n] cast to [a, b, c], n = b·c: entry (r, i, j) is the flat row's entry i·c + j. -/
theorem cast_flat_to_stack {a n b c : ℕ} (hn : n = b * c) (x : (⟨2, ![a, n]⟩ : Shape).Idx → α)
    (h : (⟨2, ![a, n]⟩ : Shape).ShapeCasts ⟨3, ![a, b, c]⟩) (r : Fin a) (i : Fin b) (j : Fin c) (hl : i.val * c + j.val < n) :
    shapeCast ⟨3, ![a, b, c]⟩ x h (ix3 r i j) = x (ix2 r ⟨i.val * c + j.val, hl⟩) :=
  shapeCast_apply x h _ _ (by
    rw [Shape.rowMajor_val_three, Shape.rowMajor_val_two]
    show r.val * n + (i.val * c + j.val) = (r.val * b + i.val) * c + j.val
    subst hn; ring)

/-- [a, b, c] cast to [a, n], n = b·c: the flat row's entry i·c + j is entry (r, i, j). -/
theorem cast_stack_to_flat {a n b c : ℕ} (hn : n = b * c) (x : (⟨3, ![a, b, c]⟩ : Shape).Idx → α)
    (h : (⟨3, ![a, b, c]⟩ : Shape).ShapeCasts ⟨2, ![a, n]⟩) (r : Fin a) (i : Fin b) (j : Fin c) (hl : i.val * c + j.val < n) :
    shapeCast ⟨2, ![a, n]⟩ x h (ix2 r ⟨i.val * c + j.val, hl⟩) = x (ix3 r i j) :=
  shapeCast_apply x h _ _ (by
    rw [Shape.rowMajor_val_three, Shape.rowMajor_val_two]
    show (r.val * b + i.val) * c + j.val = r.val * n + (i.val * c + j.val)
    subst hn; ring)

/-- [a, b] cast to [a, b, 1]: a column per matrix. -/
theorem cast_to_col {a b : ℕ} (x : (⟨2, ![a, b]⟩ : Shape).Idx → α)
    (h : (⟨2, ![a, b]⟩ : Shape).ShapeCasts ⟨3, ![a, b, 1]⟩) (r : Fin a) (i : Fin b) (u : Fin 1) :
    shapeCast ⟨3, ![a, b, 1]⟩ x h (ix3 r i u) = x (ix2 r i) :=
  shapeCast_apply x h _ _ (by
    have hu : u.val = 0 := by omega
    rw [Shape.rowMajor_val_three, Shape.rowMajor_val_two]
    show r.val * b + i.val = (r.val * b + i.val) * 1 + u.val
    rw [hu]; ring)

/-- [a, b, 1] cast to [a, b]. -/
theorem cast_of_col {a b : ℕ} (x : (⟨3, ![a, b, 1]⟩ : Shape).Idx → α)
    (h : (⟨3, ![a, b, 1]⟩ : Shape).ShapeCasts ⟨2, ![a, b]⟩) (r : Fin a) (i : Fin b) :
    shapeCast ⟨2, ![a, b]⟩ x h (ix2 r i) = x (ix3 r i (0 : Fin 1)) :=
  shapeCast_apply x h _ _ (by
    rw [Shape.rowMajor_val_three, Shape.rowMajor_val_two]
    show (r.val * b + i.val) * 1 + 0 = r.val * b + i.val
    ring)

/-- [a, b] cast to [a, 1, b]: a row per matrix. -/
theorem cast_to_row {a b : ℕ} (x : (⟨2, ![a, b]⟩ : Shape).Idx → α)
    (h : (⟨2, ![a, b]⟩ : Shape).ShapeCasts ⟨3, ![a, 1, b]⟩) (r : Fin a) (u : Fin 1) (j : Fin b) :
    shapeCast ⟨3, ![a, 1, b]⟩ x h (ix3 r u j) = x (ix2 r j) :=
  shapeCast_apply x h _ _ (by
    have hu : u.val = 0 := by omega
    rw [Shape.rowMajor_val_three, Shape.rowMajor_val_two]
    show r.val * b + j.val = (r.val * 1 + u.val) * b + j.val
    rw [hu]; ring)

/-- One matrix [1, b, c] broadcast over a stack. -/
theorem bcast_matrix {a b c : ℕ} (x : (⟨3, ![1, b, c]⟩ : Shape).Idx → α) (h : (⟨3, ![1, b, c]⟩ : Shape).Broadcasts ⟨3, ![a, b, c]⟩)
    (r : Fin a) (i : Fin b) (j : Fin c) : broadcastTo ⟨3, ![a, b, c]⟩ x h (ix3 r i j) = x (ix3 (0 : Fin 1) i j) := by
  refine broadcastTo_apply x h (ix3 r i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- A column [a, b, 1] broadcast along the rows of each matrix. -/
theorem bcast_col {a b c : ℕ} (x : (⟨3, ![a, b, 1]⟩ : Shape).Idx → α) (h : (⟨3, ![a, b, 1]⟩ : Shape).Broadcasts ⟨3, ![a, b, c]⟩)
    (r : Fin a) (i : Fin b) (j : Fin c) : broadcastTo ⟨3, ![a, b, c]⟩ x h (ix3 r i j) = x (ix3 r i (0 : Fin 1)) := by
  refine broadcastTo_apply x h (ix3 r i j) (ix3 r i (0 : Fin 1)) fun ax => ?_
  match ax with
  | ⟨0, _⟩ =>
    show r.val = if a = 1 then 0 else r.val
    split
    · have := r.isLt; omega
    · rfl
  | ⟨1, _⟩ =>
    show i.val = if b = 1 then 0 else i.val
    split
    · have := i.isLt; omega
    · rfl
  | ⟨2, _⟩ => rfl

/-- A row [a, 1, c] broadcast down the columns of each matrix. -/
theorem bcast_row {a b c : ℕ} (x : (⟨3, ![a, 1, c]⟩ : Shape).Idx → α) (h : (⟨3, ![a, 1, c]⟩ : Shape).Broadcasts ⟨3, ![a, b, c]⟩)
    (r : Fin a) (i : Fin b) (j : Fin c) : broadcastTo ⟨3, ![a, b, c]⟩ x h (ix3 r i j) = x (ix3 r (0 : Fin 1) j) := by
  refine broadcastTo_apply x h (ix3 r i j) (ix3 r (0 : Fin 1) j) fun ax => ?_
  match ax with
  | ⟨0, _⟩ =>
    show r.val = if a = 1 then 0 else r.val
    split
    · have := r.isLt; omega
    · rfl
  | ⟨1, _⟩ => rfl
  | ⟨2, _⟩ =>
    show j.val = if c = 1 then 0 else j.val
    split
    · have := j.isLt; omega
    · rfl

/-- The slice of entry `o` of the last axis. -/
theorem slice_last {a b c : ℕ} (o : Fin c) (x : (⟨3, ![a, b, c]⟩ : Shape).Idx → α)
    (h : (⟨3, ![a, b, c]⟩ : Shape).Slices ![0, 0, o.val] ⟨3, ![a, b, 1]⟩) (r : Fin a) (i : Fin b) (u : Fin 1) :
    extractStridedSlice ⟨3, ![a, b, 1]⟩ ![0, 0, o.val] x h (ix3 r i u) = x (ix3 r i o) := by
  refine extractStridedSlice_apply _ x h (ix3 r i u) (ix3 r i o) fun ax => ?_
  match ax with
  | ⟨0, _⟩ => show r.val = 0 + r.val; omega
  | ⟨1, _⟩ => show i.val = 0 + i.val; omega
  | ⟨2, _⟩ => show o.val = o.val + u.val; omega

/-- The sum over the last axis of a stack, at the extended reals. -/
theorem sum_last {a b c : ℕ} {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ) (hacc : acc = FKind.add.neutral φ hφ)
    (r : Fin a) (i : Fin b) :
    multiReduction .add [(2 : Fin 3)] ⟨2, ![a, b]⟩ src acc h hφ hacc (ix2 r i) = ∑ j : Fin c, src (ix3 r i j) := by
  refine (Ideal.multiReduction_add_single src acc h hφ hacc (ix2 r i)).trans ?_
  refine Finset.sum_congr rfl fun j _ => congrArg src (funext fun ax => Fin.ext ?_)
  rw [Shape.Reduces.lift_val]
  match ax with
  | ⟨0, _⟩ => rfl
  | ⟨1, _⟩ => rfl
  | ⟨2, _⟩ => rfl

/-- Four columns [a, b, 1] laid side by side along the last axis: entry (r, i, c) is column `c`'s entry (r, i). -/
theorem concat4_cols {a b : ℕ} (x0 x1 x2 x3 : (⟨3, ![a, b, 1]⟩ : Shape).Idx → α)
    (h : Shape.Concatenates (([⟨⟨3, ![a, b, 1]⟩, x0⟩, ⟨⟨3, ![a, b, 1]⟩, x1⟩, ⟨⟨3, ![a, b, 1]⟩, x2⟩, ⟨⟨3, ![a, b, 1]⟩, x3⟩] :
      List ((s : Shape) × (s.Idx → α))).map (·.1)) ⟨3, ![a, b, 4]⟩ (2 : Fin 3))
    (r : Fin a) (i : Fin b) (c : Fin 4) :
    concatenate ⟨3, ![a, b, 4]⟩ (2 : Fin 3) [⟨⟨3, ![a, b, 1]⟩, x0⟩, ⟨⟨3, ![a, b, 1]⟩, x1⟩, ⟨⟨3, ![a, b, 1]⟩, x2⟩, ⟨⟨3, ![a, b, 1]⟩, x3⟩] h (ix3 r i c)
      = (![x0, x1, x2, x3] c) (ix3 r i (0 : Fin 1)) := by
  have hi : ∀ (c : Fin 4) (bx : Fin 3), bx.cast (rfl : (3 : ℕ) = 3) ≠ (2 : Fin 3) →
      ((ix3 r i (0 : Fin 1) : (⟨3, ![a, b, 1]⟩ : Shape).Idx) bx).val = ((ix3 r i c : (⟨3, ![a, b, 4]⟩ : Shape).Idx) (bx.cast rfl)).val := by
    intro c bx hb
    match bx with
    | ⟨0, _⟩ => rfl
    | ⟨1, _⟩ => rfl
    | ⟨2, _⟩ => exact absurd rfl hb
  match c with
  | ⟨0, hc⟩ => exact concatenate_apply_piece (2 : Fin 3) [⟨⟨3, ![a, b, 1]⟩, x0⟩, ⟨⟨3, ![a, b, 1]⟩, x1⟩, ⟨⟨3, ![a, b, 1]⟩, x2⟩, ⟨⟨3, ![a, b, 1]⟩, x3⟩] h (ix3 r i ⟨0, hc⟩) 0 (by simp) ⟨3, ![a, b, 1]⟩ x0 rfl rfl 0 rfl (ix3 r i (0 : Fin 1)) (hi _) rfl
  | ⟨1, hc⟩ => exact concatenate_apply_piece (2 : Fin 3) [⟨⟨3, ![a, b, 1]⟩, x0⟩, ⟨⟨3, ![a, b, 1]⟩, x1⟩, ⟨⟨3, ![a, b, 1]⟩, x2⟩, ⟨⟨3, ![a, b, 1]⟩, x3⟩] h (ix3 r i ⟨1, hc⟩) 1 (by simp) ⟨3, ![a, b, 1]⟩ x1 rfl rfl 1 rfl (ix3 r i (0 : Fin 1)) (hi _) rfl
  | ⟨2, hc⟩ => exact concatenate_apply_piece (2 : Fin 3) [⟨⟨3, ![a, b, 1]⟩, x0⟩, ⟨⟨3, ![a, b, 1]⟩, x1⟩, ⟨⟨3, ![a, b, 1]⟩, x2⟩, ⟨⟨3, ![a, b, 1]⟩, x3⟩] h (ix3 r i ⟨2, hc⟩) 2 (by simp) ⟨3, ![a, b, 1]⟩ x2 rfl rfl 2 rfl (ix3 r i (0 : Fin 1)) (hi _) rfl
  | ⟨3, hc⟩ => exact concatenate_apply_piece (2 : Fin 3) [⟨⟨3, ![a, b, 1]⟩, x0⟩, ⟨⟨3, ![a, b, 1]⟩, x1⟩, ⟨⟨3, ![a, b, 1]⟩, x2⟩, ⟨⟨3, ![a, b, 1]⟩, x3⟩] h (ix3 r i ⟨3, hc⟩) 3 (by simp) ⟨3, ![a, b, 1]⟩ x3 rfl rfl 3 rfl (ix3 r i (0 : Fin 1)) (hi _) rfl

end Cert.LibRank3
-- ==== Proof.KChunk.lean ====
/-
  One chunk of 128 rows through the kernel body.

  A trip of the body loads three chunks — the cells' channels [128, 128], the weights [128, 1024], the
  inflows [128, 32] — views each row as 32 cells (channels at columns 4·i + c, weights at columns 32·i + j),
  and stores two chunks. Read at a row `r`, every intermediate value of the body is the corresponding value
  of the row update of that row (`Spec`): the masked weights, the neighbour means (a stack of 32×32 by 32×4
  products and a sum along the last axis), the four clamped channels, the pairwise distances and the new
  weights. The one place where the body and the specification are arranged differently is the squared
  distance: the body adds the four squared differences one after the other and bounds the sum below by 0;
  every square is nonnegative on the extended reals, so the bound does nothing (`sqDist_eq`).
-/
import proofs.«107930_j72782515798418_2_alg».proof.Proof.Gen.KernelIdeal.Skeleton
import proofs.«107930_j72782515798418_2_alg».proof.Proof.Spec
import proofs.«107930_j72782515798418_2_alg».proof.Proof.LibRank3
import Idealize.ShloMosaic.Lib.ValueLayout

set_option maxRecDepth 16384

noncomputable section

namespace Cert.KernelIdeal.Chunk

open Idealize.ShloMosaic Idealize.ShloMosaic.ValueIdx Cert.KernelIdeal Cert.KernelIdeal.Gen Cert.LibRank3

variable (L1 : Vec Ideal S128x128 .f32) (L2 : Vec Ideal S128x1024 .f32) (L3 : Vec Ideal S128x32 .f32)

/-- Row `r` of a chunk of 128 flattened rows: cell `i`'s channel `c` sits at column 4·i + c, -/
def hRow (r : Fin 128) : Fin 32 → Fin 4 → EReal := fun i c => L1 (ix2 r ⟨i.val * 4 + c.val, by have := i.isLt; have := c.isLt; omega⟩)
/-- the weight from cell `i` to cell `j` at column 32·i + j, -/
def wRow (r : Fin 128) : Fin 32 → Fin 32 → EReal := fun i j => L2 (ix2 r ⟨i.val * 32 + j.val, by have := i.isLt; have := j.isLt; omega⟩)
/-- the inflow of cell `i` at column `i`. -/
def sRow (r : Fin 128) : Fin 32 → EReal := fun i => L3 (ix2 r i)

/-! ## The loaded chunks as stacks -/

theorem cells_apply (r : Fin 128) (i : Fin 32) (c : Fin 4) : k0_pay5 L1 (ix3 r i c) = hRow L1 r i c := by
  unfold k0_pay5
  show shapeCast S128x32x4 (shapeCast S128x128 L1 _) _ (ix3 r i c) = _
  rw [shapeCast_self]
  exact cast_flat_to_stack (a := 128) (n := 128) (b := 32) (c := 4) rfl L1 _ r i c _

theorem weights_apply (r : Fin 128) (i j : Fin 32) : k0_pay6 L2 (ix3 r i j) = wRow L2 r i j := by
  unfold k0_pay6
  show shapeCast S128x32x32 (shapeCast S128x1024 L2 _) _ (ix3 r i j) = _
  rw [shapeCast_self]
  exact cast_flat_to_stack (a := 128) (n := 1024) (b := 32) (c := 32) rfl L2 _ r i j _

theorem inflow_apply (r : Fin 128) (i : Fin 32) : k0_pay4 L3 (ix2 r i) = sRow L3 r i := by
  unfold k0_pay4
  show shapeCast S128x32 L3 _ (ix2 r i) = _
  rw [shapeCast_self]; rfl

/-! ## The mask -/

/-- Two coordinates below 32 are equal as 32-bit words exactly when they are equal. -/
theorem eqWord (i j : Fin 32) :
    IntOp.cmpi .eq (BitVec.ofNat 32 i.val) (BitVec.ofNat 32 j.val) = if i.val = j.val then 1#1 else 0#1 := by
  unfold IntOp.cmpi
  by_cases h : i.val = j.val
  · rw [if_pos h, h]; simp
  · rw [if_neg h]
    have hne : (BitVec.ofNat 32 i.val == BitVec.ofNat 32 j.val) = false := by
      rw [beq_eq_false_iff_ne]; intro e
      have e' := congrArg BitVec.toNat e
      simp only [BitVec.toNat_ofNat] at e'
      have := i.isLt; have := j.isLt; omega
    simp [hne]

theorem mask_apply (i j : Fin 32) : k0_pay1 (F := Ideal) (ix3 (0 : Fin 1) i j) = Spec.offDiag i j := by
  unfold k0_pay1
  show shapeCast S1x32x32 (subf (broadcast S32x32 _) (sitofp .f32 (extui 32 (cmpi .eq (iota .tc S32x32 32 [0] _) (iota .tc S32x32 32 [1] _)) _))) _ (ix3 (0 : Fin 1) i j) = _
  rw [shapeCast_ab_1ab_apply]
  show _ - (((((IntOp.cmpi .eq (iota .tc S32x32 32 [0] _ (ix2 i j)) (iota .tc S32x32 32 [1] _ (ix2 i j))).setWidth 32).toInt : ℝ)) : EReal) = _
  rw [iota_single_apply, iota_single_apply]
  show Ideal.ofBits .f32 0x3F800000#32 - ((((IntOp.cmpi .eq (BitVec.ofNat 32 i.val) (BitVec.ofNat 32 j.val)).setWidth 32).toInt : ℝ) : EReal) = _
  rw [eqWord]; unfold Spec.offDiag Spec.eye
  have e1 : ((1#1 : BitVec 1).setWidth 32).toInt = 1 := by decide
  have e0 : ((0#1 : BitVec 1).setWidth 32).toInt = 0 := by decide
  by_cases h : i.val = j.val
  · rw [if_pos h, if_pos h, e1]; simp
  · rw [if_neg h, if_neg h, e0]; simp

/-! ## A stack of matrix products -/

theorem lhs_axis0 (y : S128x32x4.Idx) (q : dot_S128x32x32_S128x32x4_S128x32x4_2_1_1_2_0_0.contr.Idx) : (dot_S128x32x32_S128x32x4_S128x32x4_2_1_1_2_0_0.lhsIdx y q 0).val = (y 0).val := by
  unfold DotDims.lhsIdx
  rw [dif_pos (show (0 : Fin S128x32x32.rank) ∈ dot_S128x32x32_S128x32x4_S128x32x4_2_1_1_2_0_0.lhsBatch by decide)]
  rfl
theorem lhs_axis1 (y : S128x32x4.Idx) (q : dot_S128x32x32_S128x32x4_S128x32x4_2_1_1_2_0_0.contr.Idx) : (dot_S128x32x32_S128x32x4_S128x32x4_2_1_1_2_0_0.lhsIdx y q 1).val = (y 1).val := by
  unfold DotDims.lhsIdx
  rw [dif_neg (show ¬(1 : Fin S128x32x32.rank) ∈ dot_S128x32x32_S128x32x4_S128x32x4_2_1_1_2_0_0.lhsBatch by decide), dif_pos (show (1 : Fin S128x32x32.rank) ∈ dot_S128x32x32_S128x32x4_S128x32x4_2_1_1_2_0_0.lhsNonContracting by decide)]
  rfl
theorem lhs_axis2 (y : S128x32x4.Idx) (q : dot_S128x32x32_S128x32x4_S128x32x4_2_1_1_2_0_0.contr.Idx) : (dot_S128x32x32_S128x32x4_S128x32x4_2_1_1_2_0_0.lhsIdx y q 2).val = (q ⟨0, by decide⟩).val :=
  dot_S128x32x32_S128x32x4_S128x32x4_2_1_1_2_0_0.lhsIdx_val_of_single rfl y q
theorem rhs_axis0 (y : S128x32x4.Idx) (q : dot_S128x32x32_S128x32x4_S128x32x4_2_1_1_2_0_0.contr.Idx) : (dot_S128x32x32_S128x32x4_S128x32x4_2_1_1_2_0_0.rhsIdx y q 0).val = (y 0).val := by
  unfold DotDims.rhsIdx
  rw [dif_pos (show (0 : Fin S128x32x4.rank) ∈ dot_S128x32x32_S128x32x4_S128x32x4_2_1_1_2_0_0.rhsBatch by decide)]
  rfl
theorem rhs_axis1 (y : S128x32x4.Idx) (q : dot_S128x32x32_S128x32x4_S128x32x4_2_1_1_2_0_0.contr.Idx) : (dot_S128x32x32_S128x32x4_S128x32x4_2_1_1_2_0_0.rhsIdx y q 1).val = (q ⟨0, by decide⟩).val :=
  dot_S128x32x32_S128x32x4_S128x32x4_2_1_1_2_0_0.rhsIdx_val_of_single rfl y q
theorem rhs_axis2 (y : S128x32x4.Idx) (q : dot_S128x32x32_S128x32x4_S128x32x4_2_1_1_2_0_0.contr.Idx) : (dot_S128x32x32_S128x32x4_S128x32x4_2_1_1_2_0_0.rhsIdx y q 2).val = (y 2).val := by
  unfold DotDims.rhsIdx
  rw [dif_neg (show ¬(2 : Fin S128x32x4.rank) ∈ dot_S128x32x32_S128x32x4_S128x32x4_2_1_1_2_0_0.rhsBatch by decide), dif_pos (show (2 : Fin S128x32x4.rank) ∈ dot_S128x32x32_S128x32x4_S128x32x4_2_1_1_2_0_0.rhsNonContracting by decide)]
  rfl

/-- The product, matrix by matrix, of a stack of 32×32 matrices with a stack of 32×4 matrices, into a zero
    accumulator: entry (r, i, c) is the sum over j of (r, i, j) · (r, j, c). -/
theorem stackProduct (lhs : FVec Ideal S128x32x32 .f32) (rhs : FVec Ideal S128x32x4 .f32) (r : Fin 128) (i : Fin 32) (c : Fin 4) :
    matmul dot_S128x32x32_S128x32x4_S128x32x4_2_1_1_2_0_0 none lhs rhs (constant S128x32x4 .f32 0x00000000#32) (ix3 r i c)
      = ∑ j : Fin 32, lhs (ix3 r i j) * rhs (ix3 r j c) := by
  simp only [matmul]
  rw [Ideal.matmul_constant_zero_apply, ← Equiv.sum_comp (ValueIdx.contrEquiv1 dot_S128x32x32_S128x32x4_S128x32x4_2_1_1_2_0_0 32 rfl rfl).symm]
  refine Finset.sum_congr rfl fun k _ => ?_
  have hk := ValueIdx.contrEquiv1_symm_val dot_S128x32x32_S128x32x4_S128x32x4_2_1_1_2_0_0 32 rfl rfl k
  have el : dot_S128x32x32_S128x32x4_S128x32x4_2_1_1_2_0_0.lhsIdx (ix3 r i c) ((ValueIdx.contrEquiv1 dot_S128x32x32_S128x32x4_S128x32x4_2_1_1_2_0_0 32 rfl rfl).symm k) = ix3 r i k := funext fun a => Fin.ext (by
    match a with
    | ⟨0, _⟩ => exact lhs_axis0 _ _
    | ⟨1, _⟩ => exact lhs_axis1 _ _
    | ⟨2, _⟩ => exact (lhs_axis2 _ _).trans hk)
  have er : dot_S128x32x32_S128x32x4_S128x32x4_2_1_1_2_0_0.rhsIdx (ix3 r i c) ((ValueIdx.contrEquiv1 dot_S128x32x32_S128x32x4_S128x32x4_2_1_1_2_0_0 32 rfl rfl).symm k) = ix3 r k c := funext fun a => Fin.ext (by
    match a with
    | ⟨0, _⟩ => exact rhs_axis0 _ _
    | ⟨1, _⟩ => exact (rhs_axis1 _ _).trans hk
    | ⟨2, _⟩ => exact rhs_axis2 _ _)
  rw [el, er]

/-! ## The neighbour means -/

/-- The weights without their diagonal, as the body forms them. -/
theorem wOff_apply (r : Fin 128) (i j : Fin 32) :
    mulf (k0_pay6 L2) (broadcastTo S128x32x32 (k0_pay1 (F := Ideal)) broadcasts_S1x32x32_S128x32x32) (ix3 r i j)
      = Spec.wOff (wRow L2 r) i j := by
  show k0_pay6 L2 (ix3 r i j) * broadcastTo S128x32x32 (k0_pay1 (F := Ideal)) _ (ix3 r i j) = _
  rw [weights_apply, bcast_matrix, mask_apply]; rfl

set_option backward.isDefEq.respectTransparency.types false in
theorem neigh_apply (r : Fin 128) (i : Fin 32) (c : Fin 4) :
    k0_pay7 (k0_pay1 (F := Ideal)) L1 L2 (ix3 r i c) = Spec.neigh (hRow L1 r) (wRow L2 r) i c := by
  unfold k0_pay7
  show Ideal.div (matmul dot_S128x32x32_S128x32x4_S128x32x4_2_1_1_2_0_0 none (mulf (k0_pay6 L2) (broadcastTo S128x32x32 (k0_pay1 (F := Ideal)) _)) (k0_pay5 L1) (constant S128x32x4 .f32 0x00000000#32) (ix3 r i c))
      (broadcastTo S128x32x4 (shapeCast S128x32x1 (addf (multiReduction .add [2] S128x32 (mulf (k0_pay6 L2) (broadcastTo S128x32x32 (k0_pay1 (F := Ideal)) _)) 0x00000000#32 _ _ _) (broadcast S128x32 _)) _) _ (ix3 r i c)) = _
  rw [stackProduct, bcast_col, cast_to_col]
  rw [ValueIdx.addf_apply, sum_last, ValueIdx.broadcast_apply]
  simp only [wOff_apply, cells_apply]
  rfl

/-! ## The channels, old and of the neighbour means -/

theorem chan0_apply (r : Fin 128) (i : Fin 32) : k0_pay8 L1 (ix2 r i) = hRow L1 r i 0 := by
  unfold k0_pay8
  exact (cast_of_col _ _ r i).trans ((slice_last (a := 128) (b := 32) (c := 4) (0 : Fin 4) (k0_pay5 L1) _ r i 0).trans (cells_apply L1 r i 0))

theorem chan1_apply (r : Fin 128) (i : Fin 32) : k0_pay9 L1 (ix2 r i) = hRow L1 r i 1 := by
  unfold k0_pay9
  exact (cast_of_col _ _ r i).trans ((slice_last (a := 128) (b := 32) (c := 4) (1 : Fin 4) (k0_pay5 L1) _ r i 0).trans (cells_apply L1 r i 1))

theorem chan2_apply (r : Fin 128) (i : Fin 32) : k0_pay10 L1 (ix2 r i) = hRow L1 r i 2 := by
  unfold k0_pay10
  exact (cast_of_col _ _ r i).trans ((slice_last (a := 128) (b := 32) (c := 4) (2 : Fin 4) (k0_pay5 L1) _ r i 0).trans (cells_apply L1 r i 2))

theorem chan3_apply (r : Fin 128) (i : Fin 32) : k0_pay11 L1 (ix2 r i) = hRow L1 r i 3 := by
  unfold k0_pay11
  exact (cast_of_col _ _ r i).trans ((slice_last (a := 128) (b := 32) (c := 4) (3 : Fin 4) (k0_pay5 L1) _ r i 0).trans (cells_apply L1 r i 3))

theorem nchan0_apply (r : Fin 128) (i : Fin 32) : k0_pay12 (k0_pay1 (F := Ideal)) L1 L2 (ix2 r i) = Spec.neigh (hRow L1 r) (wRow L2 r) i 0 := by
  unfold k0_pay12
  exact (cast_of_col _ _ r i).trans ((slice_last (a := 128) (b := 32) (c := 4) (0 : Fin 4) (k0_pay7 (k0_pay1 (F := Ideal)) L1 L2) _ r i 0).trans (neigh_apply L1 L2 r i 0))

theorem nchan1_apply (r : Fin 128) (i : Fin 32) : k0_pay13 (k0_pay1 (F := Ideal)) L1 L2 (ix2 r i) = Spec.neigh (hRow L1 r) (wRow L2 r) i 1 := by
  unfold k0_pay13
  exact (cast_of_col _ _ r i).trans ((slice_last (a := 128) (b := 32) (c := 4) (1 : Fin 4) (k0_pay7 (k0_pay1 (F := Ideal)) L1 L2) _ r i 0).trans (neigh_apply L1 L2 r i 1))

theorem nchan2_apply (r : Fin 128) (i : Fin 32) : k0_pay14 (k0_pay1 (F := Ideal)) L1 L2 (ix2 r i) = Spec.neigh (hRow L1 r) (wRow L2 r) i 2 := by
  unfold k0_pay14
  exact (cast_of_col _ _ r i).trans ((slice_last (a := 128) (b := 32) (c := 4) (2 : Fin 4) (k0_pay7 (k0_pay1 (F := Ideal)) L1 L2) _ r i 0).trans (neigh_apply L1 L2 r i 2))

theorem nchan3_apply (r : Fin 128) (i : Fin 32) : k0_pay15 (k0_pay1 (F := Ideal)) L1 L2 (ix2 r i) = Spec.neigh (hRow L1 r) (wRow L2 r) i 3 := by
  unfold k0_pay15
  exact (cast_of_col _ _ r i).trans ((slice_last (a := 128) (b := 32) (c := 4) (3 : Fin 4) (k0_pay7 (k0_pay1 (F := Ideal)) L1 L2) _ r i 0).trans (neigh_apply L1 L2 r i 3))

/-! ## The updated channels -/

theorem eNew_apply (r : Fin 128) (i : Fin 32) :
    k0_pay17 (k0_pay16 L1 L3) (FloatOps.ofBits .f32 0#32) (FloatOps.ofBits .f32 1065353216#32) (ix2 r i)
      = Spec.eNew (hRow L1 r) (sRow L3 r) i := by
  unfold k0_pay17 k0_pay16
  simp only [ValueIdx.minimumf_apply, ValueIdx.maximumf_apply, ValueIdx.subf_apply, ValueIdx.addf_apply, ValueIdx.mulf_apply,
    ValueIdx.broadcast_apply, chan0_apply, chan1_apply, chan2_apply, inflow_apply]
  rfl

theorem pNew_apply (r : Fin 128) (i : Fin 32) :
    k0_pay18 (k0_pay4 L3) (k0_pay8 L1) (k0_pay9 L1) (k0_pay13 (k0_pay1 (F := Ideal)) L1 L2) (ix2 r i)
      = Spec.pNew (hRow L1 r) (wRow L2 r) (sRow L3 r) i := by
  unfold k0_pay18
  simp only [ValueIdx.minimumf_apply, ValueIdx.maximumf_apply, ValueIdx.subf_apply, ValueIdx.addf_apply, ValueIdx.mulf_apply,
    ValueIdx.broadcast_apply, chan0_apply, chan1_apply, nchan1_apply, inflow_apply]
  rfl

theorem gNew_apply (r : Fin 128) (i : Fin 32) :
    k0_pay19 (k0_pay8 L1) (k0_pay9 L1) (k0_pay10 L1) (k0_pay14 (k0_pay1 (F := Ideal)) L1 L2) (ix2 r i)
      = Spec.gNew (hRow L1 r) (wRow L2 r) i := by
  unfold k0_pay19
  simp only [ValueIdx.minimumf_apply, ValueIdx.maximumf_apply, ValueIdx.subf_apply, ValueIdx.addf_apply, ValueIdx.mulf_apply,
    ValueIdx.broadcast_apply, chan0_apply, chan1_apply, chan2_apply, nchan2_apply]
  rfl

theorem lNew_apply (r : Fin 128) (i : Fin 32) :
    k0_pay23 (k0_pay9 L1)
        (k0_pay20 (k0_pay11 L1) (k0_pay12 (k0_pay1 (F := Ideal)) L1 L2) (k0_pay14 (k0_pay1 (F := Ideal)) L1 L2))
        (k0_pay21 (k0_pay11 L1) (k0_pay15 (k0_pay1 (F := Ideal)) L1 L2)) (k0_pay22 (F := Ideal)) (ix2 r i)
      = Spec.lNew (hRow L1 r) (wRow L2 r) i := by
  unfold k0_pay23 k0_pay20 k0_pay21 k0_pay22
  simp only [ValueIdx.minimumf_apply, ValueIdx.maximumf_apply, ValueIdx.subf_apply, ValueIdx.addf_apply, ValueIdx.mulf_apply,
    ValueIdx.broadcast_apply, chan1_apply, chan3_apply, nchan0_apply, nchan2_apply, nchan3_apply]
  rfl

/-! ## The distances and the updated weights -/

theorem sqrt_apply {s : Shape} (a : FVec Ideal s .f32) (y : s.Idx) : sqrt a y = Ideal.sqrt (a y) := rfl

/-- A square is nonnegative on the extended reals too. -/
theorem mul_self_nonneg' (x : EReal) : 0 ≤ x * x := by
  induction x using EReal.rec with
  | bot => simp
  | coe x => rw [← EReal.coe_mul]; exact_mod_cast mul_self_nonneg x
  | top => simp

/-- The four squared differences, added one after the other and then bounded below by 0, are the sum over the
    channels: every square is nonnegative, so the bound does nothing. -/
theorem sqDist_eq (h : Fin 32 → Fin 4 → EReal) (w : Fin 32 → Fin 32 → EReal) (s : Fin 32 → EReal) (i j : Fin 32) :
    max ((((Spec.eNew h s i - Spec.eNew h s j) * (Spec.eNew h s i - Spec.eNew h s j)
        + (Spec.pNew h w s i - Spec.pNew h w s j) * (Spec.pNew h w s i - Spec.pNew h w s j))
        + (Spec.gNew h w i - Spec.gNew h w j) * (Spec.gNew h w i - Spec.gNew h w j))
        + (Spec.lNew h w i - Spec.lNew h w j) * (Spec.lNew h w i - Spec.lNew h w j)) (Ideal.ofBits .f32 0#32)
      = Spec.sqDist h w s i j := by
  unfold Spec.sqDist
  rw [Fin.sum_univ_four, Ideal.ofBits_zero_f32]
  exact max_eq_left (add_nonneg (add_nonneg (add_nonneg (mul_self_nonneg' _) (mul_self_nonneg' _)) (mul_self_nonneg' _)) (mul_self_nonneg' _))

theorem dist_apply (r : Fin 128) (i j : Fin 32) :
    k0_pay24 (k0_pay9 L1)
        (k0_pay17 (k0_pay16 L1 L3) (FloatOps.ofBits .f32 0#32) (FloatOps.ofBits .f32 1065353216#32))
        (k0_pay18 (k0_pay4 L3) (k0_pay8 L1) (k0_pay9 L1) (k0_pay13 (k0_pay1 (F := Ideal)) L1 L2))
        (k0_pay19 (k0_pay8 L1) (k0_pay9 L1) (k0_pay10 L1) (k0_pay14 (k0_pay1 (F := Ideal)) L1 L2))
        (k0_pay20 (k0_pay11 L1) (k0_pay12 (k0_pay1 (F := Ideal)) L1 L2) (k0_pay14 (k0_pay1 (F := Ideal)) L1 L2))
        (k0_pay21 (k0_pay11 L1) (k0_pay15 (k0_pay1 (F := Ideal)) L1 L2)) (k0_pay22 (F := Ideal)) (ix3 r i j)
      = Spec.dist (hRow L1 r) (wRow L2 r) (sRow L3 r) i j := by
  unfold k0_pay24
  simp only [ValueIdx.select_apply, ValueIdx.cmpf_apply, sqrt_apply, ValueIdx.maximumf_apply, ValueIdx.addf_apply, ValueIdx.mulf_apply,
    ValueIdx.subf_apply, ValueIdx.broadcast_apply, bcast_col, bcast_row, cast_to_col, cast_to_row,
    eNew_apply, pNew_apply, gNew_apply, lNew_apply]
  simp only [Ideal.ofBits_def, sqDist_eq]
  rfl

theorem lPair_apply (r : Fin 128) (i j : Fin 32) :
    k0_pay25 (k0_pay9 L1)
        (k0_pay20 (k0_pay11 L1) (k0_pay12 (k0_pay1 (F := Ideal)) L1 L2) (k0_pay14 (k0_pay1 (F := Ideal)) L1 L2))
        (k0_pay21 (k0_pay11 L1) (k0_pay15 (k0_pay1 (F := Ideal)) L1 L2)) (k0_pay22 (F := Ideal)) (ix3 r i j)
      = Spec.lNew (hRow L1 r) (wRow L2 r) i + Spec.lNew (hRow L1 r) (wRow L2 r) j := by
  unfold k0_pay25
  simp only [ValueIdx.addf_apply, bcast_col, bcast_row, cast_to_col, cast_to_row, lNew_apply]

/-! ## What one trip stores -/

/-- The block of updated channels a trip stores, from the three chunks it loads. -/
def chunkH : FVec Ideal S128x128 .f32 :=
  k0_pay2 (k0_pay17 (k0_pay16 L1 L3) (FloatOps.ofBits .f32 0#32) (FloatOps.ofBits .f32 1065353216#32))
    (k0_pay18 (k0_pay4 L3) (k0_pay8 L1) (k0_pay9 L1) (k0_pay13 (k0_pay1 (F := Ideal)) L1 L2))
    (k0_pay19 (k0_pay8 L1) (k0_pay9 L1) (k0_pay10 L1) (k0_pay14 (k0_pay1 (F := Ideal)) L1 L2))
    (k0_pay23 (k0_pay9 L1)
      (k0_pay20 (k0_pay11 L1) (k0_pay12 (k0_pay1 (F := Ideal)) L1 L2) (k0_pay14 (k0_pay1 (F := Ideal)) L1 L2))
      (k0_pay21 (k0_pay11 L1) (k0_pay15 (k0_pay1 (F := Ideal)) L1 L2)) (k0_pay22 (F := Ideal)))

/-- The block of updated weights a trip stores. -/
def chunkW : FVec Ideal S128x1024 .f32 :=
  k0_pay3 (k0_pay6 L2)
    (k0_pay24 (k0_pay9 L1)
      (k0_pay17 (k0_pay16 L1 L3) (FloatOps.ofBits .f32 0#32) (FloatOps.ofBits .f32 1065353216#32))
      (k0_pay18 (k0_pay4 L3) (k0_pay8 L1) (k0_pay9 L1) (k0_pay13 (k0_pay1 (F := Ideal)) L1 L2))
      (k0_pay19 (k0_pay8 L1) (k0_pay9 L1) (k0_pay10 L1) (k0_pay14 (k0_pay1 (F := Ideal)) L1 L2))
      (k0_pay20 (k0_pay11 L1) (k0_pay12 (k0_pay1 (F := Ideal)) L1 L2) (k0_pay14 (k0_pay1 (F := Ideal)) L1 L2))
      (k0_pay21 (k0_pay11 L1) (k0_pay15 (k0_pay1 (F := Ideal)) L1 L2)) (k0_pay22 (F := Ideal)))
    (k0_pay25 (k0_pay9 L1)
      (k0_pay20 (k0_pay11 L1) (k0_pay12 (k0_pay1 (F := Ideal)) L1 L2) (k0_pay14 (k0_pay1 (F := Ideal)) L1 L2))
      (k0_pay21 (k0_pay11 L1) (k0_pay15 (k0_pay1 (F := Ideal)) L1 L2)) (k0_pay22 (F := Ideal)))

/-- Row `r` of the stored weights is the row update of row `r` of the loaded chunks. -/
theorem chunkW_apply (r : Fin 128) (i j : Fin 32) (hl : i.val * 32 + j.val < 1024) :
    chunkW L1 L2 L3 (ix2 r ⟨i.val * 32 + j.val, hl⟩) = Spec.wNew (hRow L1 r) (wRow L2 r) (sRow L3 r) i j := by
  unfold chunkW k0_pay3
  refine (cast_stack_to_flat (a := 128) (n := 1024) (b := 32) (c := 32) rfl _ _ r i j hl).trans ?_
  simp only [ValueIdx.minimumf_apply, ValueIdx.maximumf_apply, ValueIdx.subf_apply, ValueIdx.addf_apply, ValueIdx.mulf_apply,
    ValueIdx.broadcast_apply, bcast_matrix, mask_apply, weights_apply, dist_apply, lPair_apply]
  rfl

/-- Row `r` of the stored channels is the row update of row `r` of the loaded chunks. -/
theorem chunkH_apply (r : Fin 128) (i : Fin 32) (c : Fin 4) (hl : i.val * 4 + c.val < 128) :
    chunkH L1 L2 L3 (ix2 r ⟨i.val * 4 + c.val, hl⟩) = Spec.hNew (hRow L1 r) (wRow L2 r) (sRow L3 r) i c := by
  unfold chunkH k0_pay2
  refine (cast_stack_to_flat (a := 128) (n := 128) (b := 32) (c := 4) rfl _ _ r i c hl).trans ?_
  refine (concat4_cols _ _ _ _ _ r i c).trans ?_
  unfold Spec.hNew
  match c with
  | ⟨0, _⟩ => exact (cast_to_col _ _ r i 0).trans (eNew_apply L1 L3 r i)
  | ⟨1, _⟩ => exact (cast_to_col _ _ r i 0).trans (pNew_apply L1 L2 L3 r i)
  | ⟨2, _⟩ => exact (cast_to_col _ _ r i 0).trans (gNew_apply L1 L2 r i)
  | ⟨3, _⟩ => exact (cast_to_col _ _ r i 0).trans (lNew_apply L1 L2 r i)

end Cert.KernelIdeal.Chunk
end
-- ==== Proof.KTrip.lean ====
/-
  The kernel body on one block of 1024 rows.

  The body is a loop of eight trips; trip `k` loads rows 128·k … 128·k + 127 of the three input blocks and
  stores the two updated chunks at the same rows of the two output blocks. So what the body leaves in an output
  block is a list of eight pieces, one per trip, and each piece, element by element, is the row update of the
  input blocks at the piece's rows (`trip_agreeH`, `trip_agreeW`: row `r` of trip `k`'s chunk is row 128·k + r of
  the block). Pieces that all restrict one function of the block's index, and that cover the block, leave that
  function: the block of updated channels is `Flat.GH` of the three input blocks, the block of updated weights
  `Flat.GW` (`out3_eq`, `out4_eq`).
-/
import proofs.«107930_j72782515798418_2_alg».proof.Proof.Gen.KernelIdeal.Frame
import proofs.«107930_j72782515798418_2_alg».proof.Proof.KFlat
import proofs.«107930_j72782515798418_2_alg».proof.Proof.KChunk

set_option maxRecDepth 16384

noncomputable section

namespace Cert.KernelIdeal.Trip

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-! ## What one trip of the loop stores -/

/-- The chunk of window `w`'s block a trip reads: rows 128·k … 128·k + 127. -/
abbrev ld1 (arg1 : Memref sig .tc .vmem S1024x128 .f32) (X1 : BufTy.Contents (Elt Ideal) arg1.view.ty) (k : Fin k0_t1_loop.trips) : Vec Ideal S128x128 .f32 :=
  View.readAt (Elt Ideal) arg1.view (Rect.unit (s := S1024x128) (k0_off1 k) S128x128.size (k0_off1_inb k)).toLoadRect X1
abbrev ld2 (arg2 : Memref sig .tc .vmem S1024x1024 .f32) (X2 : BufTy.Contents (Elt Ideal) arg2.view.ty) (k : Fin k0_t1_loop.trips) : Vec Ideal S128x1024 .f32 :=
  View.readAt (Elt Ideal) arg2.view (Rect.unit (s := S1024x1024) (k0_off2 k) S128x1024.size (k0_off2_inb k)).toLoadRect X2
abbrev ld3 (arg3 : Memref sig .tc .vmem S1024x32 .f32) (X3 : BufTy.Contents (Elt Ideal) arg3.view.ty) (k : Fin k0_t1_loop.trips) : Vec Ideal S128x32 .f32 :=
  View.readAt (Elt Ideal) arg3.view (Rect.unit (s := S1024x32) (k0_off3 k) S128x32.size (k0_off3_inb k)).toLoadRect X3

/-- Trip `k` stores ONE piece into the channels' block: at rows 128·k …, the chunk of updated channels of the
    three chunks it loaded. -/
theorem trip_piecesH (𝒱 : Variants) (bd : Option 𝒱.V) (c : Dev nD) (i : grid0.Coords) (arg1 : Memref sig .tc .vmem S1024x128 .f32) (harg1 : arg1.IsWhole) (arg2 : Memref sig .tc .vmem S1024x1024 .f32) (harg2 : arg2.IsWhole) (arg3 : Memref sig .tc .vmem S1024x32 .f32) (harg3 : arg3.IsWhole) (arg4 : Memref sig .tc .vmem S1024x128 .f32) (harg4 : arg4.IsWhole) (arg5 : Memref sig .tc .vmem S1024x1024 .f32) (harg5 : arg5.IsWhole)
    (X1 : BufTy.Contents (Elt Ideal) arg1.view.ty) (X2 : BufTy.Contents (Elt Ideal) arg2.view.ty) (X3 : BufTy.Contents (Elt Ideal) arg3.view.ty) (k : Fin k0_t1_loop.trips) :
    (trip_k0_t1 (F := Ideal) 𝒱 c bd i arg1 harg1 arg2 harg2 arg3 harg3 arg4 harg4 arg5 harg5 X1 X2 X3 k).1
      = [⟨Rect.unit (s := S1024x128) (k0_off1 k) S128x128.size (k0_off1_inb k), Chunk.chunkH (ld1 arg1 X1 k) (ld2 arg2 X2 k) (ld3 arg3 X3 k)⟩] := by
  unfold trip_k0_t1
  dsimp only
  sl_unfold_run_names
  rfl

/-- and ONE piece into the weights' block. -/
theorem trip_piecesW (𝒱 : Variants) (bd : Option 𝒱.V) (c : Dev nD) (i : grid0.Coords) (arg1 : Memref sig .tc .vmem S1024x128 .f32) (harg1 : arg1.IsWhole) (arg2 : Memref sig .tc .vmem S1024x1024 .f32) (harg2 : arg2.IsWhole) (arg3 : Memref sig .tc .vmem S1024x32 .f32) (harg3 : arg3.IsWhole) (arg4 : Memref sig .tc .vmem S1024x128 .f32) (harg4 : arg4.IsWhole) (arg5 : Memref sig .tc .vmem S1024x1024 .f32) (harg5 : arg5.IsWhole)
    (X1 : BufTy.Contents (Elt Ideal) arg1.view.ty) (X2 : BufTy.Contents (Elt Ideal) arg2.view.ty) (X3 : BufTy.Contents (Elt Ideal) arg3.view.ty) (k : Fin k0_t1_loop.trips) :
    (trip_k0_t1 (F := Ideal) 𝒱 c bd i arg1 harg1 arg2 harg2 arg3 harg3 arg4 harg4 arg5 harg5 X1 X2 X3 k).2.1
      = [⟨Rect.unit (s := S1024x1024) (k0_off2 k) S128x1024.size (k0_off2_inb k), Chunk.chunkW (ld1 arg1 X1 k) (ld2 arg2 X2 k) (ld3 arg3 X3 k)⟩] := by
  unfold trip_k0_t1
  dsimp only
  sl_unfold_run_names
  rfl

/-! ## A trip's chunks are rows of the block -/

theorem k_lt (k : Fin k0_t1_loop.trips) : k.val < 8 := Nat.lt_of_lt_of_le k.isLt k0_t1_abs.2.1

/-- Row `r` of the channels a trip loads from a buffer holding the block `x0` is row 128·k + r of the block; -/
theorem hRow_ld (arg1 : Memref sig .tc .vmem S1024x128 .f32) (harg1 : arg1.IsWhole) (x0 : Vec Ideal S1024x128 .f32)
    (k : Fin k0_t1_loop.trips) (r : Fin 128) :
    Chunk.hRow (ld1 arg1 (harg1.unread x0) k) r = Flat.rowH (n := 1024) x0 ⟨128 * k.val + r.val, by have := k_lt k; omega⟩ := by
  funext i c
  show View.ld (arg1.view.read (Elt Ideal) (harg1.unread x0)) (Rect.unit (s := S1024x128) (k0_off1 k) S128x128.size (k0_off1_inb k)) (ix2 r ⟨i.val * 4 + c.val, _⟩) = x0 (ix2 _ ⟨i.val * 4 + c.val, _⟩)
  rw [harg1.read_unread]
  refine congrArg x0 (funext fun a => Fin.ext ?_)
  rw [LoadRect.idx_apply]
  simp only [Rect.off_unit, Rect.stride_unit, k0_off1_eq]
  match a with
  | ⟨0, _⟩ => show 128 * k.val + 1 * r.val = 128 * k.val + r.val; omega
  | ⟨1, _⟩ => show 0 + 1 * (i.val * 4 + c.val) = i.val * 4 + c.val; omega

/-- of the weights; -/
theorem wRow_ld (arg2 : Memref sig .tc .vmem S1024x1024 .f32) (harg2 : arg2.IsWhole) (x1 : Vec Ideal S1024x1024 .f32)
    (k : Fin k0_t1_loop.trips) (r : Fin 128) :
    Chunk.wRow (ld2 arg2 (harg2.unread x1) k) r = Flat.rowW (n := 1024) x1 ⟨128 * k.val + r.val, by have := k_lt k; omega⟩ := by
  funext i j
  show View.ld (arg2.view.read (Elt Ideal) (harg2.unread x1)) (Rect.unit (s := S1024x1024) (k0_off2 k) S128x1024.size (k0_off2_inb k)) (ix2 r ⟨i.val * 32 + j.val, _⟩) = x1 (ix2 _ ⟨i.val * 32 + j.val, _⟩)
  rw [harg2.read_unread]
  refine congrArg x1 (funext fun a => Fin.ext ?_)
  rw [LoadRect.idx_apply]
  simp only [Rect.off_unit, Rect.stride_unit, k0_off2_eq]
  match a with
  | ⟨0, _⟩ => show 128 * k.val + 1 * r.val = 128 * k.val + r.val; omega
  | ⟨1, _⟩ => show 0 + 1 * (i.val * 32 + j.val) = i.val * 32 + j.val; omega

/-- of the inflows. -/
theorem sRow_ld (arg3 : Memref sig .tc .vmem S1024x32 .f32) (harg3 : arg3.IsWhole) (x2 : Vec Ideal S1024x32 .f32)
    (k : Fin k0_t1_loop.trips) (r : Fin 128) :
    Chunk.sRow (ld3 arg3 (harg3.unread x2) k) r = Flat.rowS (n := 1024) x2 ⟨128 * k.val + r.val, by have := k_lt k; omega⟩ := by
  funext i
  show View.ld (arg3.view.read (Elt Ideal) (harg3.unread x2)) (Rect.unit (s := S1024x32) (k0_off3 k) S128x32.size (k0_off3_inb k)) (ix2 r i) = x2 (ix2 _ i)
  rw [harg3.read_unread]
  refine congrArg x2 (funext fun a => Fin.ext ?_)
  rw [LoadRect.idx_apply]
  simp only [Rect.off_unit, Rect.stride_unit, k0_off3_eq]
  match a with
  | ⟨0, _⟩ => show 128 * k.val + 1 * r.val = 128 * k.val + r.val; omega
  | ⟨1, _⟩ => show 0 + 1 * i.val = i.val; omega

/-! ## Every piece is a block of the row update of the block -/

/-- What trip `k` stores into the channels' block agrees, element by element, with the row update of the block. -/
theorem trip_agreeH (arg1 : Memref sig .tc .vmem S1024x128 .f32) (harg1 : arg1.IsWhole) (arg2 : Memref sig .tc .vmem S1024x1024 .f32) (harg2 : arg2.IsWhole) (arg3 : Memref sig .tc .vmem S1024x32 .f32) (harg3 : arg3.IsWhole)
    (x0 : Vec Ideal S1024x128 .f32) (x1 : Vec Ideal S1024x1024 .f32) (x2 : Vec Ideal S1024x32 .f32) (k : Fin k0_t1_loop.trips) (y : S128x128.Idx) :
    Chunk.chunkH (ld1 arg1 (harg1.unread x0) k) (ld2 arg2 (harg2.unread x1) k) (ld3 arg3 (harg3.unread x2) k) y
      = Flat.GH (n := 1024) x0 x1 x2 ((Rect.unit (s := S1024x128) (k0_off1 k) S128x128.size (k0_off1_inb k)).emb y) := by
  obtain ⟨r, l, rfl⟩ : ∃ (r : Fin 128) (l : Fin 128), y = ix2 r l := ⟨y 0, y 1, eq_ix2 y⟩
  obtain ⟨i, c, hl, rfl⟩ : ∃ (i : Fin 32) (c : Fin 4) (hl : i.val * 4 + c.val < 128), l = ⟨i.val * 4 + c.val, hl⟩ :=
    ⟨⟨l.val / 4, by omega⟩, ⟨l.val % 4, Nat.mod_lt _ (by decide)⟩, by show l.val / 4 * 4 + l.val % 4 < 128; omega,
      Fin.ext (by show l.val = l.val / 4 * 4 + l.val % 4; omega)⟩
  have hk := k_lt k
  have he : (Rect.unit (s := S1024x128) (k0_off1 k) S128x128.size (k0_off1_inb k)).emb (ix2 r ⟨i.val * 4 + c.val, hl⟩)
      = (ix2 (⟨128 * k.val + r.val, by omega⟩ : Fin 1024) (⟨i.val * 4 + c.val, hl⟩ : Fin 128) : S1024x128.Idx) :=
    funext fun a => Fin.ext (by
      rw [Rect.emb_apply]
      simp only [Rect.off_unit, Rect.stride_unit, k0_off1_eq]
      match a with
      | ⟨0, _⟩ => show 128 * k.val + 1 * r.val = 128 * k.val + r.val; omega
      | ⟨1, _⟩ => show 0 + 1 * (i.val * 4 + c.val) = i.val * 4 + c.val; omega)
  rw [he, Chunk.chunkH_apply, Flat.GH_apply, hRow_ld, wRow_ld, sRow_ld]

/-- The same for the weights' block. -/
theorem trip_agreeW (arg1 : Memref sig .tc .vmem S1024x128 .f32) (harg1 : arg1.IsWhole) (arg2 : Memref sig .tc .vmem S1024x1024 .f32) (harg2 : arg2.IsWhole) (arg3 : Memref sig .tc .vmem S1024x32 .f32) (harg3 : arg3.IsWhole)
    (x0 : Vec Ideal S1024x128 .f32) (x1 : Vec Ideal S1024x1024 .f32) (x2 : Vec Ideal S1024x32 .f32) (k : Fin k0_t1_loop.trips) (y : S128x1024.Idx) :
    Chunk.chunkW (ld1 arg1 (harg1.unread x0) k) (ld2 arg2 (harg2.unread x1) k) (ld3 arg3 (harg3.unread x2) k) y
      = Flat.GW (n := 1024) x0 x1 x2 ((Rect.unit (s := S1024x1024) (k0_off2 k) S128x1024.size (k0_off2_inb k)).emb y) := by
  obtain ⟨r, l, rfl⟩ : ∃ (r : Fin 128) (l : Fin 1024), y = ix2 r l := ⟨y 0, y 1, eq_ix2 y⟩
  obtain ⟨i, j, hl, rfl⟩ : ∃ (i j : Fin 32) (hl : i.val * 32 + j.val < 1024), l = ⟨i.val * 32 + j.val, hl⟩ :=
    ⟨⟨l.val / 32, by omega⟩, ⟨l.val % 32, Nat.mod_lt _ (by decide)⟩, by show l.val / 32 * 32 + l.val % 32 < 1024; omega,
      Fin.ext (by show l.val = l.val / 32 * 32 + l.val % 32; omega)⟩
  have hk := k_lt k
  have he : (Rect.unit (s := S1024x1024) (k0_off2 k) S128x1024.size (k0_off2_inb k)).emb (ix2 r ⟨i.val * 32 + j.val, hl⟩)
      = (ix2 (⟨128 * k.val + r.val, by omega⟩ : Fin 1024) (⟨i.val * 32 + j.val, hl⟩ : Fin 1024) : S1024x1024.Idx) :=
    funext fun a => Fin.ext (by
      rw [Rect.emb_apply]
      simp only [Rect.off_unit, Rect.stride_unit, k0_off2_eq]
      match a with
      | ⟨0, _⟩ => show 128 * k.val + 1 * r.val = 128 * k.val + r.val; omega
      | ⟨1, _⟩ => show 0 + 1 * (i.val * 32 + j.val) = i.val * 32 + j.val; omega)
  rw [he, Chunk.chunkW_apply, Flat.GW_apply, hRow_ld, wRow_ld, sRow_ld]

/-! ## All the trips -/

/-- The pieces of the trips before `n`, in both blocks, agree with the row update of the block. -/
theorem pb_agree (𝒱 : Variants) (bd : Option 𝒱.V) (c : Dev nD) (i : grid0.Coords) (arg1 : Memref sig .tc .vmem S1024x128 .f32) (harg1 : arg1.IsWhole) (arg2 : Memref sig .tc .vmem S1024x1024 .f32) (harg2 : arg2.IsWhole) (arg3 : Memref sig .tc .vmem S1024x32 .f32) (harg3 : arg3.IsWhole) (arg4 : Memref sig .tc .vmem S1024x128 .f32) (harg4 : arg4.IsWhole) (arg5 : Memref sig .tc .vmem S1024x1024 .f32) (harg5 : arg5.IsWhole)
    (x0 : Vec Ideal S1024x128 .f32) (x1 : Vec Ideal S1024x1024 .f32) (x2 : Vec Ideal S1024x32 .f32) :
    ∀ n : ℕ, n ≤ k0_t1_loop.trips →
      (∀ p ∈ (pb_k0_t1 (F := Ideal) 𝒱 c bd i arg1 harg1 arg2 harg2 arg3 harg3 arg4 harg4 arg5 harg5 (harg1.unread x0) (harg2.unread x1) (harg3.unread x2) n).1, ∀ x : p.1.shape.Idx, p.2 x = Flat.GH (n := 1024) x0 x1 x2 (p.1.emb x))
      ∧ (∀ p ∈ (pb_k0_t1 (F := Ideal) 𝒱 c bd i arg1 harg1 arg2 harg2 arg3 harg3 arg4 harg4 arg5 harg5 (harg1.unread x0) (harg2.unread x1) (harg3.unread x2) n).2, ∀ x : p.1.shape.Idx, p.2 x = Flat.GW (n := 1024) x0 x1 x2 (p.1.emb x))
  | 0, _ => ⟨fun p hp => absurd hp List.not_mem_nil, fun p hp => absurd hp List.not_mem_nil⟩
  | n + 1, hn => by
    have ih := pb_agree 𝒱 bd c i arg1 harg1 arg2 harg2 arg3 harg3 arg4 harg4 arg5 harg5 x0 x1 x2 n (Nat.le_of_succ_le hn)
    have e := pb_k0_t1_succ (F := Ideal) 𝒱 c bd i arg1 harg1 arg2 harg2 arg3 harg3 arg4 harg4 arg5 harg5 (harg1.unread x0) (harg2.unread x1) (harg3.unread x2) (⟨n, hn⟩ : Fin k0_t1_loop.trips)
    rw [show n + 1 = (⟨n, hn⟩ : Fin k0_t1_loop.trips).val + 1 from rfl, e]
    refine ⟨fun p hp x => ?_, fun p hp x => ?_⟩
    · rcases List.mem_append.mp hp with h | h
      · rw [show (tripL_k0_t1 (F := Ideal) 𝒱 c bd i arg1 harg1 arg2 harg2 arg3 harg3 arg4 harg4 arg5 harg5 (harg1.unread x0) (harg2.unread x1) (harg3.unread x2) ⟨n, hn⟩).1 = (trip_k0_t1 (F := Ideal) 𝒱 c bd i arg1 harg1 arg2 harg2 arg3 harg3 arg4 harg4 arg5 harg5 (harg1.unread x0) (harg2.unread x1) (harg3.unread x2) ⟨n, hn⟩).1 from rfl,
          trip_piecesH] at h
        obtain rfl := List.mem_singleton.mp h
        exact trip_agreeH arg1 harg1 arg2 harg2 arg3 harg3 x0 x1 x2 ⟨n, hn⟩ x
      · exact ih.1 p h x
    · rcases List.mem_append.mp hp with h | h
      · rw [show (tripL_k0_t1 (F := Ideal) 𝒱 c bd i arg1 harg1 arg2 harg2 arg3 harg3 arg4 harg4 arg5 harg5 (harg1.unread x0) (harg2.unread x1) (harg3.unread x2) ⟨n, hn⟩).2 = (trip_k0_t1 (F := Ideal) 𝒱 c bd i arg1 harg1 arg2 harg2 arg3 harg3 arg4 harg4 arg5 harg5 (harg1.unread x0) (harg2.unread x1) (harg3.unread x2) ⟨n, hn⟩).2.1 from rfl,
          trip_piecesW] at h
        obtain rfl := List.mem_singleton.mp h
        exact trip_agreeW arg1 harg1 arg2 harg2 arg3 harg3 x0 x1 x2 ⟨n, hn⟩ x
      · exact ih.2 p h x

/-! ## What the body leaves in the two output blocks -/

/-- The body's pieces for the channels' block are the loop's, all eight trips. -/
theorem run_piecesH (c : Dev nD) (i : grid0.Coords) (arg1 : Memref sig .tc .vmem S1024x128 .f32) (harg1 : arg1.IsWhole) (arg2 : Memref sig .tc .vmem S1024x1024 .f32) (harg2 : arg2.IsWhole) (arg3 : Memref sig .tc .vmem S1024x32 .f32) (harg3 : arg3.IsWhole) (arg4 : Memref sig .tc .vmem S1024x128 .f32) (harg4 : arg4.IsWhole) (arg5 : Memref sig .tc .vmem S1024x1024 .f32) (harg5 : arg5.IsWhole) (x0 : Vec Ideal S1024x128 .f32) (x1 : Vec Ideal S1024x1024 .f32) (x2 : Vec Ideal S1024x32 .f32) :
    (kernelRun0_A (F := Ideal) c i arg1 harg1 arg2 harg2 arg3 harg3 arg4 harg4 arg5 harg5 x0 x1 x2).1
      = (pb_k0_t1 (F := Ideal) Variants.none c none i arg1 harg1 arg2 harg2 arg3 harg3 arg4 harg4 arg5 harg5 (harg1.unread x0) (harg2.unread x1) (harg3.unread x2) k0_t1_loop.trips).1 := by
  unfold kernelRun0_A
  rfl

theorem run_piecesW (c : Dev nD) (i : grid0.Coords) (arg1 : Memref sig .tc .vmem S1024x128 .f32) (harg1 : arg1.IsWhole) (arg2 : Memref sig .tc .vmem S1024x1024 .f32) (harg2 : arg2.IsWhole) (arg3 : Memref sig .tc .vmem S1024x32 .f32) (harg3 : arg3.IsWhole) (arg4 : Memref sig .tc .vmem S1024x128 .f32) (harg4 : arg4.IsWhole) (arg5 : Memref sig .tc .vmem S1024x1024 .f32) (harg5 : arg5.IsWhole) (x0 : Vec Ideal S1024x128 .f32) (x1 : Vec Ideal S1024x1024 .f32) (x2 : Vec Ideal S1024x32 .f32) :
    (kernelRun0_A (F := Ideal) c i arg1 harg1 arg2 harg2 arg3 harg3 arg4 harg4 arg5 harg5 x0 x1 x2).2.1
      = (pb_k0_t1 (F := Ideal) Variants.none c none i arg1 harg1 arg2 harg2 arg3 harg3 arg4 harg4 arg5 harg5 (harg1.unread x0) (harg2.unread x1) (harg3.unread x2) k0_t1_loop.trips).2 := by
  unfold kernelRun0_A
  rfl

/-- After the body, the channels' block holds the row update of the three input blocks, -/
theorem out3_eq (c : Dev nD) (i : grid0.Coords) (arg1 : Memref sig .tc .vmem S1024x128 .f32) (harg1 : arg1.IsWhole) (arg2 : Memref sig .tc .vmem S1024x1024 .f32) (harg2 : arg2.IsWhole) (arg3 : Memref sig .tc .vmem S1024x32 .f32) (harg3 : arg3.IsWhole) (arg4 : Memref sig .tc .vmem S1024x128 .f32) (harg4 : arg4.IsWhole) (arg5 : Memref sig .tc .vmem S1024x1024 .f32) (harg5 : arg5.IsWhole) (x0 : Vec Ideal S1024x128 .f32) (x1 : Vec Ideal S1024x1024 .f32) (x2 : Vec Ideal S1024x32 .f32) :
    out0_A_3 (F := Ideal) c i arg1 harg1 arg2 harg2 arg3 harg3 arg4 harg4 arg5 harg5 x0 x1 x2 = Flat.GH (n := 1024) x0 x1 x2 := by
  funext y
  unfold out0_A_3
  rw [View.read_writes_apply_eq_canon _ _ y _ (cover0_A_3 c i arg1 harg1 arg2 harg2 arg3 harg3 arg4 harg4 arg5 harg5 x0 x1 x2 y)]
  refine View.canon_apply_of_pieces (Flat.GH (n := 1024) x0 x1 x2) _ ?_ y (cover0_A_3 c i arg1 harg1 arg2 harg2 arg3 harg3 arg4 harg4 arg5 harg5 x0 x1 x2 y)
  rw [run_piecesH]
  exact (pb_agree Variants.none none c i arg1 harg1 arg2 harg2 arg3 harg3 arg4 harg4 arg5 harg5 x0 x1 x2 _ (Nat.le_refl _)).1

/-- and the weights' block the updated weights. -/
theorem out4_eq (c : Dev nD) (i : grid0.Coords) (arg1 : Memref sig .tc .vmem S1024x128 .f32) (harg1 : arg1.IsWhole) (arg2 : Memref sig .tc .vmem S1024x1024 .f32) (harg2 : arg2.IsWhole) (arg3 : Memref sig .tc .vmem S1024x32 .f32) (harg3 : arg3.IsWhole) (arg4 : Memref sig .tc .vmem S1024x128 .f32) (harg4 : arg4.IsWhole) (arg5 : Memref sig .tc .vmem S1024x1024 .f32) (harg5 : arg5.IsWhole) (x0 : Vec Ideal S1024x128 .f32) (x1 : Vec Ideal S1024x1024 .f32) (x2 : Vec Ideal S1024x32 .f32) :
    out0_A_4 (F := Ideal) c i arg1 harg1 arg2 harg2 arg3 harg3 arg4 harg4 arg5 harg5 x0 x1 x2 = Flat.GW (n := 1024) x0 x1 x2 := by
  funext y
  unfold out0_A_4
  rw [View.read_writes_apply_eq_canon _ _ y _ (cover0_A_4 c i arg1 harg1 arg2 harg2 arg3 harg3 arg4 harg4 arg5 harg5 x0 x1 x2 y)]
  refine View.canon_apply_of_pieces (Flat.GW (n := 1024) x0 x1 x2) _ ?_ y (cover0_A_4 c i arg1 harg1 arg2 harg2 arg3 harg3 arg4 harg4 arg5 harg5 x0 x1 x2 y)
  rw [run_piecesW]
  exact (pb_agree Variants.none none c i arg1 harg1 arg2 harg2 arg3 harg3 arg4 harg4 arg5 harg5 x0 x1 x2 _ (Nat.le_refl _)).2

end Cert.KernelIdeal.Trip
end
-- ==== Proof.KBlocks.lean ====
/-
  From blocks to the whole arrays.

  The grid has 16 points; point `t` stages rows 1024·t … 1024·t + 1023 of each of the five arrays (block (t, 0)
  of every window). The body leaves in the two output blocks the row update of the three input blocks
  (`Trip.out3_eq`, `Trip.out4_eq`); row `r` of point `t`'s input blocks is row 1024·t + r of the flattened
  arrays, so what point `t` writes back is block `t` of ONE function of the whole flattened arrays, `Flat.GH`
  (resp. `Flat.GW`) of the arrays as the region finds them. Row `q` lies in the block of point `q / 1024`: the
  blocks tile each output array, which therefore ends holding that function everywhere.
-/
import proofs.«107930_j72782515798418_2_alg».proof.Proof.Gen.KernelIdeal.Frame
import proofs.«107930_j72782515798418_2_alg».proof.Proof.KFlat
import proofs.«107930_j72782515798418_2_alg».proof.Proof.KTrip

set_option maxRecDepth 16384

noncomputable section

namespace Cert.KernelIdeal.Blocks

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-! ## The windows' blocks -/

theorem tN (t : Fin cfg0.N) : t.val < 16 := by have h : t.val < grid0.N := t.isLt; rw [N_0] at h; exact h

/-- Every window's block at grid point `t` is block (t, 0) of its array. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

theorem iblk0_apply (c : Dev nD) (t : Fin cfg0.N) (r : Fin 1024) (l : Fin 128) :
    iblk m c 0 t (ix2 r l) = V m c main_v0 (ix2 (⟨t.val * 1024 + r.val, by have := tN t; omega⟩ : Fin 16384) l) := by
  show V m c main_v0 (((cfg0.win 0).blk t).view.emb (ix2 r l)) = _
  refine congrArg (V m c main_v0) (funext fun a => Fin.ext ?_)
  have e := idx_facts t
  match a with
  | ⟨0, _⟩ => show win0_0.index t (0 : Fin 2) * 1024 + 1 * r.val = t.val * 1024 + r.val; omega
  | ⟨1, _⟩ => show win0_0.index t (1 : Fin 2) * 128 + 1 * l.val = l.val; omega

theorem iblk1_apply (c : Dev nD) (t : Fin cfg0.N) (r : Fin 1024) (l : Fin 1024) :
    iblk m c 1 t (ix2 r l) = V m c main_v1 (ix2 (⟨t.val * 1024 + r.val, by have := tN t; omega⟩ : Fin 16384) l) := by
  show V m c main_v1 (((cfg0.win 1).blk t).view.emb (ix2 r l)) = _
  refine congrArg (V m c main_v1) (funext fun a => Fin.ext ?_)
  have e := idx_facts t
  match a with
  | ⟨0, _⟩ => show win0_1.index t (0 : Fin 2) * 1024 + 1 * r.val = t.val * 1024 + r.val; omega
  | ⟨1, _⟩ => show win0_1.index t (1 : Fin 2) * 1024 + 1 * l.val = l.val; omega

theorem iblk2_apply (c : Dev nD) (t : Fin cfg0.N) (r : Fin 1024) (l : Fin 32) :
    iblk m c 2 t (ix2 r l) = V m c main_v2 (ix2 (⟨t.val * 1024 + r.val, by have := tN t; omega⟩ : Fin 16384) l) := by
  show V m c main_v2 (((cfg0.win 2).blk t).view.emb (ix2 r l)) = _
  refine congrArg (V m c main_v2) (funext fun a => Fin.ext ?_)
  have e := idx_facts t
  match a with
  | ⟨0, _⟩ => show win0_2.index t (0 : Fin 2) * 1024 + 1 * r.val = t.val * 1024 + r.val; omega
  | ⟨1, _⟩ => show win0_2.index t (1 : Fin 2) * 32 + 1 * l.val = l.val; omega

/-- Row `r` of point `t`'s input blocks is row 1024·t + r of the flattened arrays. -/
theorem rowH_iblk (c : Dev nD) (t : Fin cfg0.N) (r : Fin 1024) :
    Flat.rowH (n := 1024) (iblk m c 0 t) r = Flat.rowH (n := 16384) (V m c main_v0) ⟨t.val * 1024 + r.val, by have := tN t; omega⟩ :=
  funext fun i => funext fun cc => iblk0_apply m c t r _
theorem rowW_iblk (c : Dev nD) (t : Fin cfg0.N) (r : Fin 1024) :
    Flat.rowW (n := 1024) (iblk m c 1 t) r = Flat.rowW (n := 16384) (V m c main_v1) ⟨t.val * 1024 + r.val, by have := tN t; omega⟩ :=
  funext fun i => funext fun j => iblk1_apply m c t r _
theorem rowS_iblk (c : Dev nD) (t : Fin cfg0.N) (r : Fin 1024) :
    Flat.rowS (n := 1024) (iblk m c 2 t) r = Flat.rowS (n := 16384) (V m c main_v2) ⟨t.val * 1024 + r.val, by have := tN t; omega⟩ :=
  funext fun i => iblk2_apply m c t r _

/-! ## The channels' array -/

/-- What point `t` writes back into window 3's array is block `t` of the row update of the whole flattened arrays. -/
theorem flushed3_eq (c : Dev nD) (t : Fin cfg0.N) :
    (dats m 0 c).flushed 3 t = ((cfg0.win 3).blk t).view.read (Elt Ideal) (Flat.GH (n := 16384) (V m c main_v0) (V m c main_v1) (V m c main_v2)) := by
  show (cfg0.win 3).cut (grid0.coords t) ((dats m 0 c).after 3 t) = _
  rw [after0_3]
  unfold outsAt0
  dsimp only
  rw [Trip.out3_eq]
  funext j
  obtain ⟨r, l, rfl⟩ : ∃ (r : Fin 1024) (l : Fin 128), j = ix2 r l := ⟨j 0, j 1, eq_ix2 j⟩
  obtain ⟨i, cc, hl, rfl⟩ : ∃ (i : Fin 32) (cc : Fin 4) (hl : i.val * 4 + cc.val < 128), l = ⟨i.val * 4 + cc.val, hl⟩ :=
    ⟨⟨l.val / 4, by omega⟩, ⟨l.val % 4, Nat.mod_lt _ (by decide)⟩, by show l.val / 4 * 4 + l.val % 4 < 128; omega,
      Fin.ext (by show l.val = l.val / 4 * 4 + l.val % 4; omega)⟩
  have hN := tN t
  have e := idx_facts t
  have he : ((cfg0.win 3).blk t).view.emb (ix2 r ⟨i.val * 4 + cc.val, hl⟩)
      = (ix2 (⟨t.val * 1024 + r.val, by omega⟩ : Fin 16384) (⟨i.val * 4 + cc.val, hl⟩ : Fin 128) : S16384x128.Idx) :=
    funext fun a => Fin.ext (by
      match a with
      | ⟨0, _⟩ => show win0_3.index t (0 : Fin 2) * 1024 + 1 * r.val = t.val * 1024 + r.val; omega
      | ⟨1, _⟩ => show win0_3.index t (1 : Fin 2) * 128 + 1 * (i.val * 4 + cc.val) = i.val * 4 + cc.val; omega)
  show Flat.GH (n := 1024) (iblk m c 0 t) (iblk m c 1 t) (iblk m c 2 t) (ix2 r ⟨i.val * 4 + cc.val, hl⟩)
      = Flat.GH (n := 16384) (V m c main_v0) (V m c main_v1) (V m c main_v2) (((cfg0.win 3).blk t).view.emb (ix2 r ⟨i.val * 4 + cc.val, hl⟩))
  rw [he, Flat.GH_apply, Flat.GH_apply, rowH_iblk, rowW_iblk, rowS_iblk]

/-- An index of the array is in point `t`'s block when each coordinate is in the block's range on its axis. -/
theorem mem_blk3 (t : Fin cfg0.N) (i : S16384x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v3_0).slice (win0_3.rect t)).set ↔ _
  rw [View.set_slice_whole, Rect.mem_set_unit]
  exact Iff.rfl

/-- Row `q` of the array lies in the block of point `q / 1024`: the blocks tile the array. -/
theorem cover3 (i : S16384x128.Idx) : ∃ t : Fin cfg0.N, (cfg0.win 3).flush t = true ∧ i ∈ ((cfg0.win 3).blk t).view.set := by
  have hi0 : (i 0).val < 16384 := (i 0).isLt
  have hi1 : (i 1).val < 128 := (i 1).isLt
  have ht : (i 0).val / 1024 < grid0.N := by rw [N_0]; omega
  refine ⟨⟨(i 0).val / 1024, ht⟩, flush0_3 _, ?_⟩
  rw [mem_blk3]
  have e := idx_facts ⟨(i 0).val / 1024, ht⟩
  intro a
  match a with
  | ⟨0, _⟩ =>
    show win0_3.index ⟨(i 0).val / 1024, ht⟩ (0 : Fin 2) * 1024 ≤ (i 0).val ∧ (i 0).val < win0_3.index ⟨(i 0).val / 1024, ht⟩ (0 : Fin 2) * 1024 + 1024
    have e0 : win0_3.index ⟨(i 0).val / 1024, ht⟩ (0 : Fin 2) = (i 0).val / 1024 := by have := e; simp only at this; omega
    omega
  | ⟨1, _⟩ =>
    show win0_3.index ⟨(i 0).val / 1024, ht⟩ (1 : Fin 2) * 128 ≤ (i 1).val ∧ (i 1).val < win0_3.index ⟨(i 0).val / 1024, ht⟩ (1 : Fin 2) * 128 + 128
    have e1 : win0_3.index ⟨(i 0).val / 1024, ht⟩ (1 : Fin 2) = 0 := by have := e; simp only at this; omega
    omega

/-- After the run the array holds the row update of the whole flattened arrays. -/
theorem final3 (c : Dev nD) :
    (dats m 0 c).arrAt 3 cfg0.N = Flat.GH (n := 16384) (V m c main_v0) (V m c main_v1) (V m c main_v2) :=
  (dats m 0 c).arrAt_eq_of_cover 3 (Flat.GH (n := 16384) (V m c main_v0) (V m c main_v1) (V m c main_v2))
    (fun t _ => flushed3_eq m c t) cover3

/-! ## The weights' array -/

/-- What point `t` writes back into window 4's array is block `t` of the row update of the whole flattened arrays. -/
theorem flushed4_eq (c : Dev nD) (t : Fin cfg0.N) :
    (dats m 0 c).flushed 4 t = ((cfg0.win 4).blk t).view.read (Elt Ideal) (Flat.GW (n := 16384) (V m c main_v0) (V m c main_v1) (V m c main_v2)) := by
  show (cfg0.win 4).cut (grid0.coords t) ((dats m 0 c).after 4 t) = _
  rw [after0_4]
  unfold outsAt0
  dsimp only
  rw [Trip.out4_eq]
  funext j
  obtain ⟨r, l, rfl⟩ : ∃ (r : Fin 1024) (l : Fin 1024), j = ix2 r l := ⟨j 0, j 1, eq_ix2 j⟩
  obtain ⟨i, cc, hl, rfl⟩ : ∃ (i : Fin 32) (cc : Fin 32) (hl : i.val * 32 + cc.val < 1024), l = ⟨i.val * 32 + cc.val, hl⟩ :=
    ⟨⟨l.val / 32, by omega⟩, ⟨l.val % 32, Nat.mod_lt _ (by decide)⟩, by show l.val / 32 * 32 + l.val % 32 < 1024; omega,
      Fin.ext (by show l.val = l.val / 32 * 32 + l.val % 32; omega)⟩
  have hN := tN t
  have e := idx_facts t
  have he : ((cfg0.win 4).blk t).view.emb (ix2 r ⟨i.val * 32 + cc.val, hl⟩)
      = (ix2 (⟨t.val * 1024 + r.val, by omega⟩ : Fin 16384) (⟨i.val * 32 + cc.val, hl⟩ : Fin 1024) : S16384x1024.Idx) :=
    funext fun a => Fin.ext (by
      match a with
      | ⟨0, _⟩ => show win0_4.index t (0 : Fin 2) * 1024 + 1 * r.val = t.val * 1024 + r.val; omega
      | ⟨1, _⟩ => show win0_4.index t (1 : Fin 2) * 1024 + 1 * (i.val * 32 + cc.val) = i.val * 32 + cc.val; omega)
  show Flat.GW (n := 1024) (iblk m c 0 t) (iblk m c 1 t) (iblk m c 2 t) (ix2 r ⟨i.val * 32 + cc.val, hl⟩)
      = Flat.GW (n := 16384) (V m c main_v0) (V m c main_v1) (V m c main_v2) (((cfg0.win 4).blk t).view.emb (ix2 r ⟨i.val * 32 + cc.val, hl⟩))
  rw [he, Flat.GW_apply, Flat.GW_apply, rowH_iblk, rowW_iblk, rowS_iblk]

/-- An index of the array is in point `t`'s block when each coordinate is in the block's range on its axis. -/
theorem mem_blk4 (t : Fin cfg0.N) (i : S16384x1024.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v3_1).slice (win0_4.rect t)).set ↔ _
  rw [View.set_slice_whole, Rect.mem_set_unit]
  exact Iff.rfl

/-- Row `q` of the array lies in the block of point `q / 1024`: the blocks tile the array. -/
theorem cover4 (i : S16384x1024.Idx) : ∃ t : Fin cfg0.N, (cfg0.win 4).flush t = true ∧ i ∈ ((cfg0.win 4).blk t).view.set := by
  have hi0 : (i 0).val < 16384 := (i 0).isLt
  have hi1 : (i 1).val < 1024 := (i 1).isLt
  have ht : (i 0).val / 1024 < grid0.N := by rw [N_0]; omega
  refine ⟨⟨(i 0).val / 1024, ht⟩, flush0_4 _, ?_⟩
  rw [mem_blk4]
  have e := idx_facts ⟨(i 0).val / 1024, ht⟩
  intro a
  match a with
  | ⟨0, _⟩ =>
    show win0_4.index ⟨(i 0).val / 1024, ht⟩ (0 : Fin 2) * 1024 ≤ (i 0).val ∧ (i 0).val < win0_4.index ⟨(i 0).val / 1024, ht⟩ (0 : Fin 2) * 1024 + 1024
    have e0 : win0_4.index ⟨(i 0).val / 1024, ht⟩ (0 : Fin 2) = (i 0).val / 1024 := by have := e; simp only at this; omega
    omega
  | ⟨1, _⟩ =>
    show win0_4.index ⟨(i 0).val / 1024, ht⟩ (1 : Fin 2) * 1024 ≤ (i 1).val ∧ (i 1).val < win0_4.index ⟨(i 0).val / 1024, ht⟩ (1 : Fin 2) * 1024 + 1024
    have e1 : win0_4.index ⟨(i 0).val / 1024, ht⟩ (1 : Fin 2) = 0 := by have := e; simp only at this; omega
    omega

/-- After the run the array holds the row update of the whole flattened arrays. -/
theorem final4 (c : Dev nD) :
    (dats m 0 c).arrAt 4 cfg0.N = Flat.GW (n := 16384) (V m c main_v0) (V m c main_v1) (V m c main_v2) :=
  (dats m 0 c).arrAt_eq_of_cover 4 (Flat.GW (n := 16384) (V m c main_v0) (V m c main_v1) (V m c main_v2))
    (fun t _ => flushed4_eq m c t) cover4

end Cert.KernelIdeal.Blocks
end
-- ==== Proof.KReshape.lean ====
/-
  Merging and splitting axes commutes with the row update.

  The arrays [8, 2048, 32, 4], [8, 2048, 32, 32], [8, 2048, 32] laid out row-major are the flat arrays [16384, 128],
  [16384, 1024], [16384, 32]: batch `b`, time `t` is row `b·2048 + t`, cell `i`'s channel `c` is column `4·i + c`, the weight
  from `i` to `j` is column `32·i + j`. So the row update of the flat arrays, split back into four axes, is the row update of
  the original arrays.
-/
import proofs.«107930_j72782515798418_2_alg».proof.Proof.KFlat
import Idealize.ShloMosaic.Lib.Pipeline.Value

noncomputable section

namespace Cert.Reshape

open Idealize.ShloMosaic Idealize.ShloMosaic.ValueIdx

/-- The flat shapes. -/
abbrev FH : Shape := ⟨2, ![16384, 128]⟩
abbrev FW : Shape := ⟨2, ![16384, 1024]⟩
abbrev FS : Shape := ⟨2, ![16384, 32]⟩

/-- The flat row that holds batch `b`, time `t`. -/
def row (b : Fin 8) (t : Fin 2048) : Fin 16384 :=
  ⟨b.val * 2048 + t.val, by have := b.isLt; have := t.isLt; omega⟩

/-- Row `b·2048 + t` of the flattened channels is row `(b, t)` of the channels. -/
theorem rowH_cast (x0 : Spec.SH.Idx → EReal) (h0 : Spec.SH.ShapeCasts FH) (b : Fin 8) (t : Fin 2048) :
    Flat.rowH (n := 16384) (shapeCast FH x0 h0) (row b t) = Spec.rowH x0 b t := by
  funext i c
  have hl : i.val * 4 + c.val < 128 := by have := i.isLt; have := c.isLt; omega
  show shapeCast FH x0 h0 (ix2 (row b t) ⟨i.val * 4 + c.val, hl⟩) = x0 (ix4 b t i c)
  refine shapeCast_apply x0 h0 _ (ix4 b t i c) ?_
  rw [Shape.rowMajor_val_four, Shape.rowMajor_val_two]
  show ((b.val * 2048 + t.val) * 32 + i.val) * 4 + c.val = (b.val * 2048 + t.val) * 128 + (i.val * 4 + c.val)
  omega

/-- The same for the weights, -/
theorem rowW_cast (x1 : Spec.SW.Idx → EReal) (h1 : Spec.SW.ShapeCasts FW) (b : Fin 8) (t : Fin 2048) :
    Flat.rowW (n := 16384) (shapeCast FW x1 h1) (row b t) = Spec.rowW x1 b t := by
  funext i j
  have hl : i.val * 32 + j.val < 1024 := by have := i.isLt; have := j.isLt; omega
  show shapeCast FW x1 h1 (ix2 (row b t) ⟨i.val * 32 + j.val, hl⟩) = x1 (ix4 b t i j)
  refine shapeCast_apply x1 h1 _ (ix4 b t i j) ?_
  rw [Shape.rowMajor_val_four, Shape.rowMajor_val_two]
  show ((b.val * 2048 + t.val) * 32 + i.val) * 32 + j.val = (b.val * 2048 + t.val) * 1024 + (i.val * 32 + j.val)
  omega

/-- and for the inflows. -/
theorem rowS_cast (x2 : Spec.SS.Idx → EReal) (h2 : Spec.SS.ShapeCasts FS) (b : Fin 8) (t : Fin 2048) :
    Flat.rowS (n := 16384) (shapeCast FS x2 h2) (row b t) = Spec.rowS x2 b t := by
  funext i
  show shapeCast FS x2 h2 (ix2 (row b t) i) = x2 (ix3 b t i)
  refine shapeCast_apply x2 h2 _ (ix3 b t i) ?_
  rw [Shape.rowMajor_val_three, Shape.rowMajor_val_two]
  show (b.val * 2048 + t.val) * 32 + i.val = (b.val * 2048 + t.val) * 32 + i.val
  rfl

/-- The updated channels of the flattened arrays, split back into four axes, are the updated channels. -/
theorem GH_reshape (x0 : Spec.SH.Idx → EReal) (x1 : Spec.SW.Idx → EReal) (x2 : Spec.SS.Idx → EReal)
    (h0 : Spec.SH.ShapeCasts FH) (h1 : Spec.SW.ShapeCasts FW) (h2 : Spec.SS.ShapeCasts FS) (hb : FH.ShapeCasts Spec.SH) :
    shapeCast Spec.SH (Flat.GH (n := 16384) (shapeCast FH x0 h0) (shapeCast FW x1 h1) (shapeCast FS x2 h2)) hb
      = Spec.GH x0 x1 x2 := by
  funext y
  obtain ⟨b, t, i, c, rfl⟩ : ∃ b t i c, y = ix4 b t i c := ⟨y 0, y 1, y 2, y 3, eq_ix4 y⟩
  have hl : i.val * 4 + c.val < 128 := by have := i.isLt; have := c.isLt; omega
  refine (shapeCast_apply _ hb (ix4 b t i c) (ix2 (row b t) ⟨i.val * 4 + c.val, hl⟩) ?_).trans ?_
  · rw [Shape.rowMajor_val_two, Shape.rowMajor_val_four]
    show (b.val * 2048 + t.val) * 128 + (i.val * 4 + c.val) = ((b.val * 2048 + t.val) * 32 + i.val) * 4 + c.val
    omega
  · rw [Flat.GH_apply, Spec.GH_apply, rowH_cast, rowW_cast, rowS_cast]

/-- The updated weights of the flattened arrays, split back into four axes, are the updated weights. -/
theorem GW_reshape (x0 : Spec.SH.Idx → EReal) (x1 : Spec.SW.Idx → EReal) (x2 : Spec.SS.Idx → EReal)
    (h0 : Spec.SH.ShapeCasts FH) (h1 : Spec.SW.ShapeCasts FW) (h2 : Spec.SS.ShapeCasts FS) (hb : FW.ShapeCasts Spec.SW) :
    shapeCast Spec.SW (Flat.GW (n := 16384) (shapeCast FH x0 h0) (shapeCast FW x1 h1) (shapeCast FS x2 h2)) hb
      = Spec.GW x0 x1 x2 := by
  funext y
  obtain ⟨b, t, i, j, rfl⟩ : ∃ b t i j, y = ix4 b t i j := ⟨y 0, y 1, y 2, y 3, eq_ix4 y⟩
  have hl : i.val * 32 + j.val < 1024 := by have := i.isLt; have := j.isLt; omega
  refine (shapeCast_apply _ hb (ix4 b t i j) (ix2 (row b t) ⟨i.val * 32 + j.val, hl⟩) ?_).trans ?_
  · rw [Shape.rowMajor_val_two, Shape.rowMajor_val_four]
    show (b.val * 2048 + t.val) * 1024 + (i.val * 32 + j.val) = ((b.val * 2048 + t.val) * 32 + i.val) * 32 + j.val
    omega
  · rw [Flat.GW_apply, Spec.GW_apply, rowH_cast, rowW_cast, rowS_cast]

end Cert.Reshape

end
-- ==== Proof.KRun.lean ====
/-
  The kernel program's run, read at its two results.

  The program merges the batch and time axes and the cell axes of its three arguments, runs the pipelined region on the
  flat arrays, and splits the region's two flat results back into four axes. The region leaves the row update of the flat
  arrays; merging and splitting axes commutes with the row update; so the two results are the row update of the
  arguments, and the arguments are left as they were.
-/
import proofs.«107930_j72782515798418_2_alg».proof.Proof.Gen.KernelIdeal.Frame
import proofs.«107930_j72782515798418_2_alg».proof.Proof.KBlocks
import proofs.«107930_j72782515798418_2_alg».proof.Proof.KReshape

noncomputable section

namespace Cert.KernelIdeal.RunValue

open Cert.KernelIdeal Cert.KernelIdeal.Gen Idealize.ShloMosaic Idealize.ShloMosaic.TcCoe Idealize.SL.Sem

/-- What the region finds in its first array: the channels with their axes merged. -/
theorem V_v0 (m : (ℓ : Loc nD τ sig) → Buf (Elt Ideal) ℓ) (c : Dev nD) :
    (V m c main_v0 : S16384x128.Idx → EReal)
      = shapeCast S16384x128 (m ((c : Thread nD τ).loc main_arg0)) Gen.shapeCasts_S8x2048x32x4_S16384x128 := by
  show StableHlo.after hostOps0 (fun b => m (c, b)) (Proc.devRef .tc main_v0) = _
  after_results
  rfl

/-- In its second: the weights with their axes merged. -/
theorem V_v1 (m : (ℓ : Loc nD τ sig) → Buf (Elt Ideal) ℓ) (c : Dev nD) :
    (V m c main_v1 : S16384x1024.Idx → EReal)
      = shapeCast S16384x1024 (m ((c : Thread nD τ).loc main_arg1)) Gen.shapeCasts_S8x2048x32x32_S16384x1024 := by
  show StableHlo.after hostOps0 (fun b => m (c, b)) (Proc.devRef .tc main_v1) = _
  after_results
  rfl

/-- In its third: the inflows with their axes merged. -/
theorem V_v2 (m : (ℓ : Loc nD τ sig) → Buf (Elt Ideal) ℓ) (c : Dev nD) :
    (V m c main_v2 : S16384x32.Idx → EReal)
      = shapeCast S16384x32 (m ((c : Thread nD τ).loc main_arg2)) Gen.shapeCasts_S8x2048x32_S16384x32 := by
  show StableHlo.after hostOps0 (fun b => m (c, b)) (Proc.devRef .tc main_v2) = _
  after_results
  rfl

/-- The first result: the region's flat channels split back into four axes are the updated channels. -/
theorem tail_v4 (m : (ℓ : Loc nD τ sig) → Buf (Elt Ideal) ℓ) (c : Dev nD) :
    Pipeline.afterTail₀ cfgs (dats m) 0 (V0 m) [hostOps1] c main_v4
      = Cert.Spec.GH (m ((c.tc : Thread nD τ).loc main_arg0)) (m ((c.tc : Thread nD τ).loc main_arg1))
          (m ((c.tc : Thread nD τ).loc main_arg2)) := by
  have e3 : Pipeline.withArrays (cfgs 0).spec c (V0 m c) (fun w => (dats m 0 c).arrAt w (cfgs 0).N)
        (Proc.devRef .tc main_v3_0)
      = Flat.GH (n := 16384) (V m c main_v0) (V m c main_v1) (V m c main_v2) :=
    (Pipeline.withArrays_arr spec0 launch0.win.arr_inj c _ _ 3).trans (Blocks.final3 m c)
  unfold Pipeline.afterTail₀
  show StableHlo.after hostOps1 _ (Proc.devRef .tc main_v4) = _
  after_results
  rw [e3, V_v0 m c, V_v1 m c, V_v2 m c]
  exact Reshape.GH_reshape _ _ _ _ _ _ _

/-- The second result: the region's flat weights split back into four axes are the updated weights. -/
theorem tail_v5 (m : (ℓ : Loc nD τ sig) → Buf (Elt Ideal) ℓ) (c : Dev nD) :
    Pipeline.afterTail₀ cfgs (dats m) 0 (V0 m) [hostOps1] c main_v5
      = Cert.Spec.GW (m ((c.tc : Thread nD τ).loc main_arg0)) (m ((c.tc : Thread nD τ).loc main_arg1))
          (m ((c.tc : Thread nD τ).loc main_arg2)) := by
  have e4 : Pipeline.withArrays (cfgs 0).spec c (V0 m c) (fun w => (dats m 0 c).arrAt w (cfgs 0).N)
        (Proc.devRef .tc main_v3_1)
      = Flat.GW (n := 16384) (V m c main_v0) (V m c main_v1) (V m c main_v2) :=
    (Pipeline.withArrays_arr spec0 launch0.win.arr_inj c _ _ 4).trans (Blocks.final4 m c)
  unfold Pipeline.afterTail₀
  show StableHlo.after hostOps1 _ (Proc.devRef .tc main_v5) = _
  after_results
  rw [e4, V_v0 m c, V_v1 m c, V_v2 m c]
  exact Reshape.GW_reshape _ _ _ _ _ _ _

/-- Every run of the kernel program ends with the updated channels and the updated weights of its arguments in its two
    results, and its arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4) = Cert.Spec.GH (m ((c.tc : Thread nD τ).loc main_arg0)) (m ((c.tc : Thread nD τ).loc main_arg1)) (m ((c.tc : Thread nD τ).loc main_arg2))
      ∧ r.2.mem ((c.tc : Thread nD τ).loc main_v5) = Cert.Spec.GW (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v4 (Pipeline.mem_restRefs_of main_v4 (by decide) (by decide))).trans (tail_v4 m c),
     ((h c).2 main_v5 (Pipeline.mem_restRefs_of main_v5 (by decide) (by decide))).trans (tail_v5 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (Gen.run_main m ρ)

end Cert.KernelIdeal.RunValue

end
-- ==== Proof.lean ====
/-
  The kernel against its reference, over the extended reals.

  Both programs apply one update to each of the 8 × 2048 rows of 32 cells (`Spec`): neighbour means through the
  weights without their diagonal, four clamped channel updates, pairwise distances of the updated cells, and a
  weight update masked by the diagonal again. The reference does it on the arrays as given. The kernel flattens
  the batch and time axes into 16384 rows and the cell axes into columns, walks the rows in 16 blocks of 1024,
  each block in eight chunks of 128, and reshapes its two results back.

  * `RefIsSpec`: the reference's two results are `Spec.GH`, `Spec.GW` of the arguments, operation by operation.
  * `KChunk`: one chunk through the body is the row update of its rows; the one rearrangement is the squared
    distance, added channel by channel and bounded below by 0 in the kernel, a sum over the channels in the
    reference: squares are nonnegative, so the bound does nothing.
  * `KTrip`, `KBlocks`: eight chunks make a block, sixteen blocks the flattened arrays (`Flat.GH`, `Flat.GW`).
  * `KReshape`, `KRun`: row b·2048 + t of the flattened arrays is row (b, t) of the arguments, column 4·i + c
    (32·i + j) is cell i's channel c (weight to j); so the kernel's results are `Spec.GH`, `Spec.GW` too.

  No step needs the inputs to be finite: the two sides differ by the order of additions and by a bound that is
  never active, and both hold on all extended reals. The three frames are the generated ones (the reference's is
  its generated run with the results dropped); the idealization rewrote nothing, so `preserves` is `True`.
-/
import proofs.«107930_j72782515798418_2_alg».proof.Defs
import proofs.«107930_j72782515798418_2_alg».proof.Proof.Gen.Kernel
import proofs.«107930_j72782515798418_2_alg».proof.Proof.Gen.Kernel.Frame
import proofs.«107930_j72782515798418_2_alg».proof.Proof.Gen.KernelIdeal
import proofs.«107930_j72782515798418_2_alg».proof.Proof.Gen.KernelIdeal.Frame
import proofs.«107930_j72782515798418_2_alg».proof.Proof.Gen.ReferenceIdeal
import proofs.«107930_j72782515798418_2_alg».proof.Proof.Gen.ReferenceIdeal.Run
import proofs.«107930_j72782515798418_2_alg».proof.Proof.Gen.ReferenceIdeal.Read
import proofs.«107930_j72782515798418_2_alg».proof.Proof.Gen.Pre_finite_inputs
import proofs.«107930_j72782515798418_2_alg».proof.Proof.RefIsSpec
import proofs.«107930_j72782515798418_2_alg».proof.Proof.KRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with `Spec.GH`, `Spec.GW` of the (agreeing) arguments in their two results. -/
theorem algebraic : Cert.algebraic_KernelIdeal_ReferenceIdeal := by
  intro m ρ m' ρ' _ hagree
  refine ⟨fun c => Cert.Spec.GH (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    fun c => Cert.Spec.GW (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.RunValue.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v89_eq, Cert.RefValue.ref_h, (hagree c).1, (hagree c).2.1, (hagree c).2.2]
  · rw [(h c).2.1, Cert.ReferenceIdeal.Read.val_main_v123_eq, Cert.RefValue.ref_w, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
